-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S512x1024 : Shape := ⟨2, ![512, 1024]⟩
abbrev S1x1024 : Shape := ⟨2, ![1, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 32
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S4x2048x16x64, .f32⟩
  | .hbm, ⟨18, _⟩ => ⟨S4x16x2048x64, .f32⟩
  | .hbm, ⟨19, _⟩ => ⟨S64x2048x64, .f32⟩
  | .hbm, ⟨20, _⟩ => ⟨S4x2048x16x64, .f32⟩
  | .hbm, ⟨21, _⟩ => ⟨S4x16x2048x64, .f32⟩
  | .hbm, ⟨22, _⟩ => ⟨S64x2048x64, .f32⟩
  | .hbm, ⟨23, _⟩ => ⟨S4x2048x16x64, .f32⟩
  | .hbm, ⟨24, _⟩ => ⟨S4x16x2048x64, .f32⟩
  | .hbm, ⟨25, _⟩ => ⟨S64x2048x64, .f32⟩
  | .hbm, ⟨26, _⟩ => ⟨S64x2048x64, .f32⟩
  | .hbm, ⟨27, _⟩ => ⟨S4x16x2048x64, .f32⟩
  | .hbm, ⟨28, _⟩ => ⟨S4x2048x16x64, .f32⟩
  | .hbm, ⟨29, _⟩ => ⟨S8192x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024, .f32⟩
  | .local _ .vmem, ⟨16, _⟩ => ⟨S512x1024, .f32⟩
  | .local _ .vmem, ⟨17, _⟩ => ⟨S512x1024, .f32⟩
  | .local _ .vmem, ⟨18, _⟩ => ⟨S1x512x64, .f32⟩
  | .local _ .vmem, ⟨19, _⟩ => ⟨S1x512x64, .f32⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S1x2048x64, .f32⟩
  | .local _ .vmem, ⟨24, _⟩ => ⟨S1x512x64, .f32⟩
  | .local _ .vmem, ⟨25, _⟩ => ⟨S1x512x64, .f32⟩
  | .local _ .vmem, ⟨26, _⟩ => ⟨S512x1024, .f32⟩
  | .local _ .vmem, ⟨27, _⟩ => ⟨S512x1024, .f32⟩
  | .local _ .vmem, ⟨28, _⟩ => ⟨S1024x1024, .f32⟩
  | .local _ .vmem, ⟨29, _⟩ => ⟨S1024, .f32⟩
  | .local _ .vmem, ⟨30, _⟩ => ⟨S512x1024, .f32⟩
  | .local _ .vmem, ⟨31, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![64, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S512x1024_S1024x1024_S512x1024_1_1_0_0_n_n_wf : DotDims.WF S512x1024 S1024x1024 S512x1024 [1] [1] [0] [0] [] []
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S64x2048x64.size a
  hwx3_0 : ∀ i : grid3.Coords, EltTy.bits .f32 = 32 ∨ (Rect.block (s := S64x2048x64) S1x512x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S64x2048x64.size a
  hwx3_1 : ∀ i : grid3.Coords, EltTy.bits .f32 = 32 ∨ (Rect.block (s := S64x2048x64) S1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S64x2048x64.size a
  hwx3_2 : ∀ i : grid3.Coords, EltTy.bits .f32 = 32 ∨ (Rect.block (s := S64x2048x64) S1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S64x2048x64.size a
  hwx3_3 : ∀ i : grid3.Coords, EltTy.bits .f32 = 32 ∨ (Rect.block (s := S64x2048x64) S1x512x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .f32 = 32 ∨ (Rect.block (s := S8192x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048, .f32⟩
  | .hbm, ⟨38, _⟩ => ⟨S_, .f32⟩
  | .hbm, ⟨39, _⟩ => ⟨S4x16x2048, .f32⟩
  | .hbm, ⟨40, _⟩ => ⟨S4x16x2048, .f32⟩
  | .hbm, ⟨41, _⟩ => ⟨S4x16x2048x1, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .f32⟩
  | .hbm, ⟨45, _⟩ => ⟨S_, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x64, .f32⟩
  | .hbm, ⟨51, _⟩ => ⟨S4x2048x16x64, .f32⟩
  | .hbm, ⟨52, _⟩ => ⟨S4x2048x1024, .f32⟩
  | .hbm, ⟨53, _⟩ => ⟨S4x2048x1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The tiled program's run, with its result named.

  The program is nine segments: host reshapes, three linear-layer regions, the host operations that split the
  features into heads, the attention region, the host operations that put the heads back, the output linear-layer
  region, and a last host reshape. The buffer contents at each boundary are a fold from the launch memory; every
  weakly fair execution ends with every buffer that outlives the regions at the last boundary's contents. Read at
  the result array and at the eleven argument arrays, that says: the result ends at the last boundary's contents of
  its buffer, and the arguments end as launched.
-/
import proofs.«115554_j33449205301807_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the argument arrays end as launched. -/
theorem run_result : θ_run defs (onTc (τ := τ) (main (F := F))) ⟨m, fun _ => 0, ρ⟩ (fun r => ∀ c : Dev nD,
      r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v20 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.HostGlue.lean ====
/-
  What each kernel region finds in its input arrays, and where the program's result comes from.

  Between the launch and the return the program's buffers change only at nine boundaries: a stretch of host
  re-layouts writes its own results, a kernel region writes its output array. So the contents a region finds in an
  input array are either the launch contents (an argument, which nothing writes), a re-layout of them, an earlier
  region's output, or a re-layout of one. The statements below say which, array by array, as equations between
  whole arrays; nothing is read at an entry here.
-/
import proofs.«115554_j33449205301807_2_alg».proof.Proof.Gen.KernelIdeal.Frame
import proofs.«115554_j33449205301807_2_alg».proof.Proof.LibKeeps
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The first stretch: the three activations as matrices of rows -/

theorem W1_v0 : W1 m ρ c (Proc.devRef .tc main_v0)
    = shapeCast S8192x1024 (m ((c : Thread nD τ).loc main_arg0)) shapeCasts_S4x2048x1024_S8192x1024 := by
  show StableHlo.after hostOps0 (W0 m ρ c) (Proc.devRef .tc main_v0) = _
  after_results
  rfl
theorem W1_v1 : W1 m ρ c (Proc.devRef .tc main_v1)
    = shapeCast S8192x1024 (m ((c : Thread nD τ).loc main_arg1)) shapeCasts_S4x2048x1024_S8192x1024 := by
  show StableHlo.after hostOps0 (W0 m ρ c) (Proc.devRef .tc main_v1) = _
  after_results
  rfl
theorem W1_v2 : W1 m ρ c (Proc.devRef .tc main_v2)
    = shapeCast S8192x1024 (m ((c : Thread nD τ).loc main_arg2)) shapeCasts_S4x2048x1024_S8192x1024 := by
  show StableHlo.after hostOps0 (W0 m ρ c) (Proc.devRef .tc main_v2) = _
  after_results
  rfl

/-- The first stretch writes none of the weights and biases. -/
theorem W1_keeps (b : Ref sig .tc) (hb : b = main_arg3 ∨ b = main_arg4 ∨ b = main_arg5 ∨ b = main_arg6 ∨ b = main_arg7
    ∨ b = main_arg8 ∨ b = main_arg9 ∨ b = main_arg10) :
    W1 m ρ c (Proc.devRef .tc b) = m ((c : Thread nD τ).loc b) := by
  show StableHlo.after hostOps0 (W0 m ρ c) (Proc.devRef .tc b) = W0 m ρ c (Proc.devRef .tc b)
  rcases hb with h | h | h | h | h | h | h | h <;> subst h <;> keeps_host hostOps0

/-! ## The three projection regions -/

/-- Region 0 finds the first activation's rows, and the first weights and bias as launched. -/
theorem V1_v0 : V1 m ρ c main_v0 = shapeCast S8192x1024 (m ((c : Thread nD τ).loc main_arg0)) shapeCasts_S4x2048x1024_S8192x1024 := W1_v0 m ρ c
theorem V1_arg3 : V1 m ρ c main_arg3 = m ((c : Thread nD τ).loc main_arg3) := W1_keeps m ρ c _ (.inl rfl)
theorem V1_arg4 : V1 m ρ c main_arg4 = m ((c : Thread nD τ).loc main_arg4) := W1_keeps m ρ c _ (.inr (.inl rfl))

/-- Region 1 finds the second activation's rows, and its weights and bias as launched: region 0 wrote only its output. -/
theorem V2_v1 : V2 m ρ c main_v1 = shapeCast S8192x1024 (m ((c : Thread nD τ).loc main_arg1)) shapeCasts_S4x2048x1024_S8192x1024 :=
  (W2_of_ne m ρ c main_v1 (by decide)).trans (W1_v1 m ρ c)
theorem V2_arg5 : V2 m ρ c main_arg5 = m ((c : Thread nD τ).loc main_arg5) :=
  (W2_of_ne m ρ c main_arg5 (by decide)).trans (W1_keeps m ρ c _ (.inr (.inr (.inl rfl))))
theorem V2_arg6 : V2 m ρ c main_arg6 = m ((c : Thread nD τ).loc main_arg6) :=
  (W2_of_ne m ρ c main_arg6 (by decide)).trans (W1_keeps m ρ c _ (.inr (.inr (.inr (.inl rfl)))))

/-- Region 2 likewise. -/
theorem V3_v2 : V3 m ρ c main_v2 = shapeCast S8192x1024 (m ((c : Thread nD τ).loc main_arg2)) shapeCasts_S4x2048x1024_S8192x1024 :=
  (W3_of_ne m ρ c main_v2 (by decide)).trans ((W2_of_ne m ρ c main_v2 (by decide)).trans (W1_v2 m ρ c))
theorem V3_arg7 : V3 m ρ c main_arg7 = m ((c : Thread nD τ).loc main_arg7) :=
  (W3_of_ne m ρ c main_arg7 (by decide)).trans ((W2_of_ne m ρ c main_arg7 (by decide)).trans (W1_keeps m ρ c _ (.inr (.inr (.inr (.inr (.inl rfl)))))))
theorem V3_arg8 : V3 m ρ c main_arg8 = m ((c : Thread nD τ).loc main_arg8) :=
  (W3_of_ne m ρ c main_arg8 (by decide)).trans ((W2_of_ne m ρ c main_arg8 (by decide)).trans (W1_keeps m ρ c _ (.inr (.inr (.inr (.inr (.inr (.inl rfl))))))))

/-! ## The three projections when the heads are split -/

/-- The first projection is still region 0's output when the heads are split: regions 1 and 2 wrote only theirs. -/
theorem W4_v3 : W4 m ρ c (Proc.devRef .tc main_v3) = (dat0 (V1 m ρ) c).arrAt 3 cfg0.N :=
  (W4_of_ne m ρ c main_v3 (by decide)).trans ((W3_of_ne m ρ c main_v3 (by decide)).trans (W2_arr m ρ c 3))
theorem W4_v4 : W4 m ρ c (Proc.devRef .tc main_v4) = (dat1 (V2 m ρ) c).arrAt 3 cfg1.N :=
  (W4_of_ne m ρ c main_v4 (by decide)).trans (W3_arr m ρ c 3)
theorem W4_v5 : W4 m ρ c (Proc.devRef .tc main_v5) = (dat2 (V3 m ρ) c).arrAt 3 cfg2.N := W4_arr m ρ c 3

/-! ## The attention region's inputs: the projections split into heads -/

theorem V5_v8 : V5 m ρ c main_v8 = shapeCast S64x2048x64 (transpose S4x16x2048x64 [0, 2, 1, 3]
      (shapeCast S4x2048x16x64 (W4 m ρ c (Proc.devRef .tc main_v3)) shapeCasts_S8192x1024_S4x2048x16x64)
      transposes_S4x2048x16x64_S4x16x2048x64_0_2_1_3) shapeCasts_S4x16x2048x64_S64x2048x64 := by
  show StableHlo.after hostOps3 (W4 m ρ c) (Proc.devRef .tc main_v8) = _
  after_results
  rfl
theorem V5_v11 : V5 m ρ c main_v11 = shapeCast S64x2048x64 (transpose S4x16x2048x64 [0, 2, 1, 3]
      (shapeCast S4x2048x16x64 (W4 m ρ c (Proc.devRef .tc main_v4)) shapeCasts_S8192x1024_S4x2048x16x64)
      transposes_S4x2048x16x64_S4x16x2048x64_0_2_1_3) shapeCasts_S4x16x2048x64_S64x2048x64 := by
  show StableHlo.after hostOps3 (W4 m ρ c) (Proc.devRef .tc main_v11) = _
  after_results
  rfl
theorem V5_v14 : V5 m ρ c main_v14 = shapeCast S64x2048x64 (transpose S4x16x2048x64 [0, 2, 1, 3]
      (shapeCast S4x2048x16x64 (W4 m ρ c (Proc.devRef .tc main_v5)) shapeCasts_S8192x1024_S4x2048x16x64)
      transposes_S4x2048x16x64_S4x16x2048x64_0_2_1_3) shapeCasts_S4x16x2048x64_S64x2048x64 := by
  show StableHlo.after hostOps3 (W4 m ρ c) (Proc.devRef .tc main_v14) = _
  after_results
  rfl

/-! ## The output projection's inputs: the contexts with the heads put back, the last weights and bias as launched -/

theorem V7_v18 : V7 m ρ c main_v18 = shapeCast S8192x1024 (transpose S4x2048x16x64 [0, 2, 1, 3]
      (shapeCast S4x16x2048x64 ((dat3 (V5 m ρ) c).arrAt 3 cfg3.N) shapeCasts_S64x2048x64_S4x16x2048x64)
      transposes_S4x16x2048x64_S4x2048x16x64_0_2_1_3) shapeCasts_S4x2048x16x64_S8192x1024 := by
  rw [← W6_arr m ρ c 3]
  show StableHlo.after hostOps4 (W6 m ρ c) (Proc.devRef .tc main_v18) = _
  after_results
  rfl

/-- Nothing before the output projection writes its weights or bias. -/
theorem W7_keeps (b : Ref sig .tc) (hb : b = main_arg9 ∨ b = main_arg10) :
    W7 m ρ c (Proc.devRef .tc b) = m ((c : Thread nD τ).loc b) := by
  have h7 : W7 m ρ c (Proc.devRef .tc b) = W6 m ρ c (Proc.devRef .tc b) := by
    show StableHlo.after hostOps4 (W6 m ρ c) (Proc.devRef .tc b) = W6 m ρ c (Proc.devRef .tc b)
    rcases hb with h | h <;> subst h <;> keeps_host hostOps4
  have h6 : W6 m ρ c (Proc.devRef .tc b) = W5 m ρ c (Proc.devRef .tc b) := by
    rcases hb with h | h <;> subst h <;> exact W6_of_ne m ρ c _ (by decide)
  have h5 : W5 m ρ c (Proc.devRef .tc b) = W4 m ρ c (Proc.devRef .tc b) := by
    show StableHlo.after hostOps3 (W4 m ρ c) (Proc.devRef .tc b) = W4 m ρ c (Proc.devRef .tc b)
    rcases hb with h | h <;> subst h <;> keeps_host hostOps3
  have h4 : W4 m ρ c (Proc.devRef .tc b) = W3 m ρ c (Proc.devRef .tc b) := by
    rcases hb with h | h <;> subst h <;> exact W4_of_ne m ρ c _ (by decide)
  have h3 : W3 m ρ c (Proc.devRef .tc b) = W2 m ρ c (Proc.devRef .tc b) := by
    rcases hb with h | h <;> subst h <;> exact W3_of_ne m ρ c _ (by decide)
  have h2 : W2 m ρ c (Proc.devRef .tc b) = W1 m ρ c (Proc.devRef .tc b) := by
    rcases hb with h | h <;> subst h <;> exact W2_of_ne m ρ c _ (by decide)
  rw [h7, h6, h5, h4, h3, h2]
  exact W1_keeps m ρ c b (by rcases hb with h | h <;> subst h <;> simp)
theorem V7_arg9 : V7 m ρ c main_arg9 = m ((c : Thread nD τ).loc main_arg9) := W7_keeps m ρ c _ (.inl rfl)
theorem V7_arg10 : V7 m ρ c main_arg10 = m ((c : Thread nD τ).loc main_arg10) := W7_keeps m ρ c _ (.inr rfl)

/-! ## The result: the output projection's rows as an activation -/

theorem W9_v20 : W9 m ρ c (Proc.devRef .tc main_v20)
    = shapeCast S4x2048x1024 ((dat4 (V7 m ρ) c).arrAt 3 cfg4.N) shapeCasts_S8192x1024_S4x2048x1024 := by
  rw [← W8_arr m ρ c 3]
  show StableHlo.after hostOps5 (W8 m ρ c) (Proc.devRef .tc main_v20) = _
  after_results
  rfl

end Cert.KernelIdeal.Glue

end
-- ==== Proof.MhaSpec.lean ====
/-
  Multi-head attention of a batch of sequences, entry by entry over the extended reals.

  Three activations q, k, v of shape [4, 2048, 1024] (batch, position, feature) each go through a linear layer
  x ↦ x·Wᵀ + b. The 1024 features are 16 heads of 64; for each batch entry and head, position s attends to every
  position t with the score (Σ_d Q(s, h·64 + d) · K(t, h·64 + d)) · 1/8, the scores of a row become weights by the
  softmax taken with the row's maximum subtracted (exp(r t − max r) / Σ_u exp(r u − max r)), and the context of s is
  the weighted sum of the values V(t, h·64 + d). The heads' contexts, side by side again as 1024 features, go through
  a fourth linear layer. Everything is a finite sum, product, difference, quotient, maximum or exponential of extended
  reals: the definitions below are the value of each stage at given coordinates, and they are what both the tiled
  program and the whole-array program are shown to compute.
-/
import Idealize.ShloMosaic.PureOps.Ideal
import Idealize.ShloMosaic.Lib.ValueIdx

noncomputable section

open scoped BigOperators

namespace Cert.Mha

open Idealize.ShloMosaic Idealize.ShloMosaic.ValueIdx

/-- An activation array [4, 2048, 1024]: batch entry, position, feature. -/
abbrev Act : Type := (⟨3, ![4, 2048, 1024]⟩ : Shape).Idx → EReal
/-- A weight matrix [1024, 1024]: output feature, input feature. -/
abbrev Wt : Type := (⟨2, ![1024, 1024]⟩ : Shape).Idx → EReal
/-- A bias vector [1024]. -/
abbrev Bias : Type := (⟨1, ![1024]⟩ : Shape).Idx → EReal
/-- An activation given by its coordinates. -/
abbrev Tab : Type := Fin 4 → Fin 2048 → Fin 1024 → EReal

/-- An activation array read by coordinates. -/
def tab (x : Act) : Tab := fun n s d => x (ix3 n s d)

/-- Feature h·64 + d: position d of head h. -/
def feat (h : Fin 16) (d : Fin 64) : Fin 1024 := ⟨h.val * 64 + d.val, by have := h.isLt; have := d.isLt; omega⟩

/-- The linear layer x·Wᵀ + b: output feature e of position s is Σ_d x(s, d)·W(e, d) + b(e). -/
def proj (x : Tab) (w : Wt) (b : Bias) : Tab := fun n s e => (∑ d : Fin 1024, x n s d * w (ix2 e d)) + b (ix1 e)

/-- The score scale 1/8 = 1/√64, as the binary32 word of 0.125. -/
def scale : EReal := Ideal.ofBits .f32 0x3E000000#32

/-- The row of scores of position s in head h of batch entry n: against every position t. -/
def score (q k : Tab) (n : Fin 4) (h : Fin 16) (s : Fin 2048) : Fin 2048 → EReal :=
  fun t => (∑ d : Fin 64, q n s (feat h d) * k n t (feat h d)) * scale

/-- The greatest entry of a row (the fold of max from the least extended real). -/
def rowmax (r : Fin 2048 → EReal) : EReal := (Finset.univ : Finset (Fin 2048)).fold max ⊥ r

/-- The softmax weight of entry t of a row. -/
def weight (r : Fin 2048 → EReal) (t : Fin 2048) : EReal :=
  Ideal.div (Ideal.exp (r t - rowmax r)) (∑ u : Fin 2048, Ideal.exp (r u - rowmax r))

/-- The context of position s in head h: the values weighted by the softmax of the row of scores. -/
def ctx (q k v : Tab) (n : Fin 4) (h : Fin 16) (s : Fin 2048) (d : Fin 64) : EReal :=
  ∑ t : Fin 2048, weight (score q k n h s) t * v n t (feat h d)

/-- The heads' contexts side by side: feature e is position e mod 64 of head e / 64. -/
def merged (q k v : Tab) : Tab := fun n s e =>
  ctx q k v n ⟨e.val / 64, by have := e.isLt; omega⟩ s ⟨e.val % 64, Nat.mod_lt _ (by decide)⟩

/-- The attention layer by coordinates. -/
def outTab (q k v : Act) (wq : Wt) (bq : Bias) (wk : Wt) (bk : Bias) (wv : Wt) (bv : Bias) (wo : Wt) (bo : Bias) : Tab :=
  proj (merged (proj (tab q) wq bq) (proj (tab k) wk bk) (proj (tab v) wv bv)) wo bo

/-- The attention layer as an array. -/
def out (q k v : Act) (wq : Wt) (bq : Bias) (wk : Wt) (bk : Bias) (wv : Wt) (bv : Bias) (wo : Wt) (bo : Bias) : Act := fun i =>
  outTab q k v wq bq wk bk wv bv wo bo ⟨(i 0).val, (i 0).isLt⟩ ⟨(i 1).val, (i 1).isLt⟩ ⟨(i 2).val, (i 2).isLt⟩

theorem out_apply (q k v : Act) (wq : Wt) (bq : Bias) (wk : Wt) (bk : Bias) (wv : Wt) (bv : Bias) (wo : Wt) (bo : Bias)
    (n : Fin 4) (s : Fin 2048) (e : Fin 1024) :
    out q k v wq bq wk bk wv bv wo bo (ix3 n s e) = outTab q k v wq bq wk bk wv bv wo bo n s e := rfl

/-- Head and position within the head of a feature, and back. -/
theorem feat_div_mod (e : Fin 1024) :
    feat ⟨e.val / 64, by have := e.isLt; omega⟩ ⟨e.val % 64, Nat.mod_lt _ (by decide)⟩ = e :=
  Fin.ext (by show e.val / 64 * 64 + e.val % 64 = e.val; omega)

theorem merged_feat (q k v : Tab) (n : Fin 4) (s : Fin 2048) (h : Fin 16) (d : Fin 64) :
    merged q k v n s (feat h d) = ctx q k v n h s d := by
  have hh := h.isLt; have hd := d.isLt
  unfold merged
  have e1 : (⟨(feat h d).val / 64, by have := (feat h d).isLt; omega⟩ : Fin 16) = h := Fin.ext (by show (h.val * 64 + d.val) / 64 = h.val; omega)
  have e2 : (⟨(feat h d).val % 64, Nat.mod_lt _ (by decide)⟩ : Fin 64) = d := Fin.ext (by show (h.val * 64 + d.val) % 64 = d.val; omega)
  rw [e1, e2]

end Cert.Mha

end
-- ==== Proof.MhaLayout.lean ====
/-
  The re-layouts between the linear layers and the attention kernel, read at an entry.

  A [4, 2048, 1024] activation is handled as the 8192 × 1024 matrix of its rows (row n·2048 + s is position s of
  batch entry n); the matrix is split into heads by viewing it as [4, 2048, 16, 64], exchanging the position and head
  axes, and viewing the result as 64 slabs [64, 2048, 64] (slab n·16 + h is head h of batch entry n); the inverse
  chain puts the heads back. Each is a composition of row-major re-views and one exchange of axes, so an entry of
  the result is one entry of the operand: the lemmas below name it, with the coordinates given as (n, s) for a row,
  (n, h) for a slab and (h, d) for a feature, so that no division appears.
-/
import proofs.«115554_j33449205301807_2_alg».proof.Proof.MhaSpec
import Idealize.ShloMosaic.Lib.ValueIdx
import Idealize.ShloMosaic.Lib.Pipeline.Value

noncomputable section

namespace Cert.MhaLayout

open Idealize.ShloMosaic Idealize.ShloMosaic.ValueIdx
open Cert.Mha (feat)

variable {α : Type}

/-- Row n·2048 + s of the 8192-row matrix. -/
def row (n : Fin 4) (s : Fin 2048) : Fin 8192 := ⟨n.val * 2048 + s.val, by have := n.isLt; have := s.isLt; omega⟩
/-- Slab n·16 + h of the 64 heads-by-batch slabs. -/
def slab (n : Fin 4) (h : Fin 16) : Fin 64 := ⟨n.val * 16 + h.val, by have := n.isLt; have := h.isLt; omega⟩

/-- Every row is row (n, s) for its quotient and remainder by 2048. -/
theorem row_div_mod (r : Fin 8192) :
    row ⟨r.val / 2048, by have := r.isLt; omega⟩ ⟨r.val % 2048, Nat.mod_lt _ (by decide)⟩ = r :=
  Fin.ext (by show r.val / 2048 * 2048 + r.val % 2048 = r.val; omega)
/-- Every slab is slab (n, h) for its quotient and remainder by 16. -/
theorem slab_div_mod (b : Fin 64) :
    slab ⟨b.val / 16, by have := b.isLt; omega⟩ ⟨b.val % 16, Nat.mod_lt _ (by decide)⟩ = b :=
  Fin.ext (by show b.val / 16 * 16 + b.val % 16 = b.val; omega)

/-- The activation as a matrix of rows: entry (row (n, s), d) is the activation's (n, s, d). -/
theorem flat_apply (x : (⟨3, ![4, 2048, 1024]⟩ : Shape).Idx → α)
    (h : (⟨3, ![4, 2048, 1024]⟩ : Shape).ShapeCasts ⟨2, ![8192, 1024]⟩) (n : Fin 4) (s : Fin 2048) (d : Fin 1024) :
    shapeCast ⟨2, ![8192, 1024]⟩ x h (ix2 (row n s) d) = x (ix3 n s d) :=
  shapeCast_apply x h _ _ (by
    rw [Shape.rowMajor_val_three, Shape.rowMajor_val_two]
    show (n.val * 2048 + s.val) * 1024 + d.val = (n.val * 2048 + s.val) * 1024 + d.val
    rfl)

/-- The matrix of rows as an activation again. -/
theorem unflat_apply (y : (⟨2, ![8192, 1024]⟩ : Shape).Idx → α)
    (h : (⟨2, ![8192, 1024]⟩ : Shape).ShapeCasts ⟨3, ![4, 2048, 1024]⟩) (n : Fin 4) (s : Fin 2048) (e : Fin 1024) :
    shapeCast ⟨3, ![4, 2048, 1024]⟩ y h (ix3 n s e) = y (ix2 (row n s) e) :=
  shapeCast_apply y h _ _ (by
    rw [Shape.rowMajor_val_three, Shape.rowMajor_val_two]
    show (n.val * 2048 + s.val) * 1024 + e.val = (n.val * 2048 + s.val) * 1024 + e.val
    rfl)

/-- Splitting into heads: entry (slab (n, h), s, d) of the slabs is entry (row (n, s), feat (h, d)) of the matrix. -/
theorem heads_apply (y : (⟨2, ![8192, 1024]⟩ : Shape).Idx → α)
    (h1 : (⟨2, ![8192, 1024]⟩ : Shape).ShapeCasts ⟨4, ![4, 2048, 16, 64]⟩)
    (h2 : (⟨4, ![4, 2048, 16, 64]⟩ : Shape).Transposes [0, 2, 1, 3] ⟨4, ![4, 16, 2048, 64]⟩)
    (h3 : (⟨4, ![4, 16, 2048, 64]⟩ : Shape).ShapeCasts ⟨3, ![64, 2048, 64]⟩)
    (n : Fin 4) (h : Fin 16) (s : Fin 2048) (d : Fin 64) :
    shapeCast ⟨3, ![64, 2048, 64]⟩ (transpose ⟨4, ![4, 16, 2048, 64]⟩ [0, 2, 1, 3] (shapeCast ⟨4, ![4, 2048, 16, 64]⟩ y h1) h2) h3
        (ix3 (slab n h) s d) = y (ix2 (row n s) (feat h d)) := by
  have hn := n.isLt; have hh := h.isLt; have hs := s.isLt; have hd := d.isLt
  refine (shapeCast_apply _ h3 (ix3 (slab n h) s d) (ix4 n h s d) (by
    rw [Shape.rowMajor_val_four, Shape.rowMajor_val_three]
    show ((n.val * 16 + h.val) * 2048 + s.val) * 64 + d.val = ((n.val * 16 + h.val) * 2048 + s.val) * 64 + d.val
    rfl)).trans ?_
  refine (transpose_apply [0, 2, 1, 3] _ h2 (ix4 n h s d) (ix4 n s h d) (fun b => match b with
    | ⟨0, _⟩ => rfl
    | ⟨1, _⟩ => rfl
    | ⟨2, _⟩ => rfl
    | ⟨3, _⟩ => rfl)).trans ?_
  exact shapeCast_apply y h1 (ix4 n s h d) (ix2 (row n s) (feat h d)) (by
    rw [Shape.rowMajor_val_four, Shape.rowMajor_val_two]
    show (n.val * 2048 + s.val) * 1024 + (h.val * 64 + d.val) = ((n.val * 2048 + s.val) * 16 + h.val) * 64 + d.val
    omega)

/-- Putting the heads back: entry (row (n, s), feat (h, d)) of the matrix is entry (slab (n, h), s, d) of the slabs. -/
theorem unheads_apply (a : (⟨3, ![64, 2048, 64]⟩ : Shape).Idx → α)
    (h1 : (⟨3, ![64, 2048, 64]⟩ : Shape).ShapeCasts ⟨4, ![4, 16, 2048, 64]⟩)
    (h2 : (⟨4, ![4, 16, 2048, 64]⟩ : Shape).Transposes [0, 2, 1, 3] ⟨4, ![4, 2048, 16, 64]⟩)
    (h3 : (⟨4, ![4, 2048, 16, 64]⟩ : Shape).ShapeCasts ⟨2, ![8192, 1024]⟩)
    (n : Fin 4) (h : Fin 16) (s : Fin 2048) (d : Fin 64) :
    shapeCast ⟨2, ![8192, 1024]⟩ (transpose ⟨4, ![4, 2048, 16, 64]⟩ [0, 2, 1, 3] (shapeCast ⟨4, ![4, 16, 2048, 64]⟩ a h1) h2) h3
        (ix2 (row n s) (feat h d)) = a (ix3 (slab n h) s d) := by
  have hn := n.isLt; have hh := h.isLt; have hs := s.isLt; have hd := d.isLt
  refine (shapeCast_apply _ h3 (ix2 (row n s) (feat h d)) (ix4 n s h d) (by
    rw [Shape.rowMajor_val_four, Shape.rowMajor_val_two]
    show ((n.val * 2048 + s.val) * 16 + h.val) * 64 + d.val = (n.val * 2048 + s.val) * 1024 + (h.val * 64 + d.val)
    omega)).trans ?_
  refine (transpose_apply [0, 2, 1, 3] _ h2 (ix4 n s h d) (ix4 n h s d) (fun b => match b with
    | ⟨0, _⟩ => rfl
    | ⟨1, _⟩ => rfl
    | ⟨2, _⟩ => rfl
    | ⟨3, _⟩ => rfl)).trans ?_
  exact shapeCast_apply a h1 (ix4 n h s d) (ix3 (slab n h) s d) (by
    rw [Shape.rowMajor_val_four, Shape.rowMajor_val_three]
    show ((n.val * 16 + h.val) * 2048 + s.val) * 64 + d.val = ((n.val * 16 + h.val) * 2048 + s.val) * 64 + d.val
    rfl)

end Cert.MhaLayout

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LinearBlock.lean ====
/-
  One block of the linear layer, entry by entry.

  The linear kernel's body takes a block of 512 rows of the activation (x0 : [512, 1024]), the whole weight
  matrix (x1 : [1024, 1024], output feature by input feature) and the bias (x2 : [1024]), and stores the product of
  the rows with the transpose of the weights plus the bias spread down the rows. Over the extended reals a change
  of float format is the identity and the product into the zero accumulator is the plain sum, so entry (p, e) of what
  it stores is Σ_d x0(p, d) · x1(e, d) + x2(e). The four linear kernels of the program have this same body.
-/
import proofs.«115554_j33449205301807_2_alg».proof.Proof.Gen.KernelIdeal.Skeleton
import proofs.«115554_j33449205301807_2_alg».proof.Proof.LibRowsDot
import Idealize.ShloMosaic.Lib.ValueIdx
import Idealize.ShloMosaic.Lib.Pipeline.Value
import Idealize.ShloMosaic.Lib.ValueLayout

noncomputable section

open scoped BigOperators

namespace Cert.KernelIdeal.LinearBlock

open Cert.KernelIdeal Cert.KernelIdeal.Gen Idealize.ShloMosaic Idealize.ShloMosaic.ValueIdx

/-- The body's product contracts the second axis of both operands. -/
theorem rows : Cert.LibRowsDot.Rows dot_S512x1024_S1024x1024_S512x1024_1_1_0_0_n_n := ⟨rfl, rfl, rfl, rfl, rfl, rfl⟩

/-- The bias viewed as one row and spread down the 512 rows reads, at (p, e), entry e of the bias. -/
theorem bias_apply (x2 : FVec Ideal S1024 .f32) (p : Fin 512) (e : Fin 1024) :
    broadcastTo S512x1024 (shapeCast S1x1024 x2 shapeCasts_S1024_S1x1024) broadcasts_S1x1024_S512x1024 (ix2 p e) = x2 (ix1 e) :=
  (broadcastTo_1b_ab_apply _ broadcasts_S1x1024_S512x1024 p e).trans (shapeCast_a_1a_apply x2 shapeCasts_S1024_S1x1024 0 e)

/-- Entry (p, e) of what the body stores. -/
theorem pay_apply (x0 : FVec Ideal S512x1024 .f32) (x1 : FVec Ideal S1024x1024 .f32) (x2 : FVec Ideal S1024 .f32)
    (p : Fin 512) (e : Fin 1024) :
    k0_pay1 (F := Ideal) x0 x1 x2 (ix2 p e) = (∑ d : Fin 1024, x0 (ix2 p d) * x1 (ix2 e d)) + x2 (ix1 e) := by
  unfold k0_pay1
  rw [addf_apply, bias_apply]
  refine congrArg (· + x2 (ix1 e)) ?_
  refine (rows.matmul_zero_apply none _ _ p e).trans ?_
  refine Finset.sum_congr rfl fun d _ => ?_
  rw [truncf_apply, truncf_apply, shapeCast_self]

/-- The other three linear kernels' bodies are the same term. -/
theorem pay1_eq : @k1_pay1 = @k0_pay1 := rfl
theorem pay2_eq : @k2_pay1 = @k0_pay1 := rfl
theorem pay4_eq : @k4_pay1 = @k0_pay1 := rfl

end Cert.KernelIdeal.LinearBlock

end
-- ==== Proof.LinearRegion0.lean ====
/-
  A projection region's output array after the run (region 0 of the program).

  The region runs the linear kernel's body at 16 grid points; at point t it finds rows 512·t … 512·t + 511 of the
  8192-row input matrix, the whole weight matrix and the whole bias, and writes back rows 512·t … 512·t + 511 of
  its output. What the body stores is x·Wᵀ + b of the rows it finds, so what point t writes back is block t of ONE
  function of the input arrays — x·Wᵀ + b of the whole matrix —, and as the 16 blocks tile the 8192 rows the output
  array ends holding that function.
-/
import proofs.«115554_j33449205301807_2_alg».proof.Proof.Gen.KernelIdeal.Frame
import proofs.«115554_j33449205301807_2_alg».proof.Proof.LinearBlock
import Idealize.ShloMosaic.Lib.ValueIdx
import Idealize.ShloMosaic.Lib.Pipeline.Value

set_option maxRecDepth 16384

noncomputable section

open scoped BigOperators

namespace Cert.KernelIdeal.LinearRegion0

open Cert.KernelIdeal Cert.KernelIdeal.Gen Idealize.ShloMosaic Idealize.ShloMosaic.TcCoe Idealize.ShloMosaic.ValueIdx Idealize.SL.Sem
open Idealize.ShloMosaic.Pipeline (Dat)

/-- x·Wᵀ + b on a matrix of 8192 rows: entry (r, e) is Σ_d X(r, d)·W(e, d) + b(e). -/
def linArr (X : S8192x1024.Idx → EReal) (W : S1024x1024.Idx → EReal) (b : S1024.Idx → EReal) : S8192x1024.Idx → EReal :=
  fun i => (∑ d : Fin 1024, X (ix2 ⟨(i 0).val, (i 0).isLt⟩ d) * W (ix2 ⟨(i 1).val, (i 1).isLt⟩ d)) + b (ix1 ⟨(i 1).val, (i 1).isLt⟩)

theorem linArr_apply (X : S8192x1024.Idx → EReal) (W : S1024x1024.Idx → EReal) (b : S1024.Idx → EReal) (r : Fin 8192) (e : Fin 1024) :
    linArr X W b (ix2 r e) = (∑ d : Fin 1024, X (ix2 r d) * W (ix2 e d)) + b (ix1 e) := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 points: the row blocks move with the point, the weights and bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point t writes back is block t of x·Wᵀ + b of the arrays the region finds. -/
theorem flushed_eq (c : Dev nD) (t : Fin cfg0.N) :
    (dat0 V c).flushed 3 t = ((cfg0.win 3).blk t).view.read (Elt Ideal) (linArr (V c main_v0) (V c main_arg3) (V c main_arg4)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, e, rfl⟩ : ∃ (p : Fin 512) (e : Fin 1024), j = ix2 p e := ⟨j 0, j 1, eq_ix2 j⟩
  have ht : t.val < 16 := t.isLt
  have hp := p.isLt
  have hemb3 : ((cfg0.win 3).blk t).view.emb (ix2 p e) = ix2 (⟨t.val * 512 + p.val, by omega⟩ : Fin 8192) e := by
    funext a; apply Fin.ext
    match a with
    | ⟨0, _⟩ => show win0_3.index t (0 : Fin 2) * 512 + 1 * p.val = t.val * 512 + p.val; omega
    | ⟨1, _⟩ => show win0_3.index t (1 : Fin 2) * 1024 + 1 * e.val = e.val; omega
  show k0_pay1 (iblk0 V c 0 t) (iblk0 V c 1 t) (iblk0 V c 2 t) (ix2 p e)
    = linArr (V c main_v0) (V c main_arg3) (V c main_arg4) (((cfg0.win 3).blk t).view.emb (ix2 p e))
  rw [hemb3, linArr_apply]
  refine (LinearBlock.pay_apply _ _ _ p e).trans ?_
  refine congrArg₂ (· + ·) (Finset.sum_congr rfl fun d _ => congrArg₂ (· * ·) ?_ ?_) ?_
  · show V c main_v0 (((cfg0.win 0).blk t).view.emb (ix2 p d)) = _
    refine congrArg _ ?_
    funext a; apply Fin.ext
    match a with
    | ⟨0, _⟩ => show win0_0.index t (0 : Fin 2) * 512 + 1 * p.val = t.val * 512 + p.val; omega
    | ⟨1, _⟩ => show win0_0.index t (1 : Fin 2) * 1024 + 1 * d.val = d.val; omega
  · show V c main_arg3 (((cfg0.win 1).blk t).view.emb (ix2 e d)) = _
    refine congrArg _ ?_
    funext a; apply Fin.ext
    match a with
    | ⟨0, _⟩ => show win0_1.index t (0 : Fin 2) * 1024 + 1 * e.val = e.val; omega
    | ⟨1, _⟩ => show win0_1.index t (1 : Fin 2) * 1024 + 1 * d.val = d.val; omega
  · show V c main_arg4 (((cfg0.win 2).blk t).view.emb (ix1 e)) = _
    refine congrArg _ ?_
    funext a; apply Fin.ext
    match a with
    | ⟨0, _⟩ => show win0_2.index t (0 : Fin 1) * 1024 + 1 * e.val = e.val; omega

end

/-- An entry of the output array is in point t's block iff each coordinate is in the block's range. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every entry of the output array is in the block of the point its row's quotient by 512 names. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hlt : (i 0).val / 512 < 16 := by omega
  refine ⟨⟨(i 0).val / 512, hlt⟩, flush0_3 _, ?_⟩
  rw [mem_blk]
  obtain ⟨e0, e1, e2, e3, e4, e5, e6⟩ := idx_facts ⟨(i 0).val / 512, hlt⟩
  intro a
  match a with
  | ⟨0, _⟩ =>
    show win0_3.index _ (0 : Fin 2) * 512 ≤ (i 0).val ∧ (i 0).val < win0_3.index _ (0 : Fin 2) * 512 + 512
    rw [e5]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [e6]
    omega

/-- The region's output array after the run. -/
theorem final (V : (c : Dev nD) → (b : Ref sig .tc) → Buf (Elt Ideal) ((c : Thread nD τ).loc b)) (c : Dev nD) :
    (dat0 V c).arrAt 3 cfg0.N = linArr (V c main_v0) (V c main_arg3) (V c main_arg4) :=
  (dat0 V c).arrAt_eq_of_cover 3 _ (fun t _ => flushed_eq V c t) cover

end Cert.KernelIdeal.LinearRegion0

end
-- ==== Proof.LinearRegion1.lean ====
/-
  A projection region's output array after the run (region 1 of the program).

  The region runs the linear kernel's body at 16 grid points; at point t it finds rows 512·t … 512·t + 511 of the
  8192-row input matrix, the whole weight matrix and the whole bias, and writes back rows 512·t … 512·t + 511 of
  its output. What the body stores is x·Wᵀ + b of the rows it finds, so what point t writes back is block t of ONE
  function of the input arrays — x·Wᵀ + b of the whole matrix —, and as the 16 blocks tile the 8192 rows the output
  array ends holding that function.
-/
import proofs.«115554_j33449205301807_2_alg».proof.Proof.Gen.KernelIdeal.Frame
import proofs.«115554_j33449205301807_2_alg».proof.Proof.LinearBlock
import Idealize.ShloMosaic.Lib.ValueIdx
import Idealize.ShloMosaic.Lib.Pipeline.Value

set_option maxRecDepth 16384

noncomputable section

open scoped BigOperators

namespace Cert.KernelIdeal.LinearRegion1

open Cert.KernelIdeal Cert.KernelIdeal.Gen Idealize.ShloMosaic Idealize.ShloMosaic.TcCoe Idealize.ShloMosaic.ValueIdx Idealize.SL.Sem
open Idealize.ShloMosaic.Pipeline (Dat)

/-- x·Wᵀ + b on a matrix of 8192 rows: entry (r, e) is Σ_d X(r, d)·W(e, d) + b(e). -/
def linArr (X : S8192x1024.Idx → EReal) (W : S1024x1024.Idx → EReal) (b : S1024.Idx → EReal) : S8192x1024.Idx → EReal :=
  fun i => (∑ d : Fin 1024, X (ix2 ⟨(i 0).val, (i 0).isLt⟩ d) * W (ix2 ⟨(i 1).val, (i 1).isLt⟩ d)) + b (ix1 ⟨(i 1).val, (i 1).isLt⟩)

theorem linArr_apply (X : S8192x1024.Idx → EReal) (W : S1024x1024.Idx → EReal) (b : S1024.Idx → EReal) (r : Fin 8192) (e : Fin 1024) :
    linArr X W b (ix2 r e) = (∑ d : Fin 1024, X (ix2 r d) * W (ix2 e d)) + b (ix1 e) := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 points: the row blocks move with the point, the weights and bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What point t writes back is block t of x·Wᵀ + b of the arrays the region finds. -/
theorem flushed_eq (c : Dev nD) (t : Fin cfg1.N) :
    (dat1 V c).flushed 3 t = ((cfg1.win 3).blk t).view.read (Elt Ideal) (linArr (V c main_v1) (V c main_arg5) (V c main_arg6)) := by
  show (cfg1.win 3).cut (grid1.coords t) ((dat1 V c).after 3 t) = _
  rw [after1_3]
  unfold out1_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, e, rfl⟩ : ∃ (p : Fin 512) (e : Fin 1024), j = ix2 p e := ⟨j 0, j 1, eq_ix2 j⟩
  have ht : t.val < 16 := t.isLt
  have hp := p.isLt
  have hemb3 : ((cfg1.win 3).blk t).view.emb (ix2 p e) = ix2 (⟨t.val * 512 + p.val, by omega⟩ : Fin 8192) e := by
    funext a; apply Fin.ext
    match a with
    | ⟨0, _⟩ => show win1_3.index t (0 : Fin 2) * 512 + 1 * p.val = t.val * 512 + p.val; omega
    | ⟨1, _⟩ => show win1_3.index t (1 : Fin 2) * 1024 + 1 * e.val = e.val; omega
  show k0_pay1 (iblk1 V c 0 t) (iblk1 V c 1 t) (iblk1 V c 2 t) (ix2 p e)
    = linArr (V c main_v1) (V c main_arg5) (V c main_arg6) (((cfg1.win 3).blk t).view.emb (ix2 p e))
  rw [hemb3, linArr_apply]
  refine (LinearBlock.pay_apply _ _ _ p e).trans ?_
  refine congrArg₂ (· + ·) (Finset.sum_congr rfl fun d _ => congrArg₂ (· * ·) ?_ ?_) ?_
  · show V c main_v1 (((cfg1.win 0).blk t).view.emb (ix2 p d)) = _
    refine congrArg _ ?_
    funext a; apply Fin.ext
    match a with
    | ⟨0, _⟩ => show win1_0.index t (0 : Fin 2) * 512 + 1 * p.val = t.val * 512 + p.val; omega
    | ⟨1, _⟩ => show win1_0.index t (1 : Fin 2) * 1024 + 1 * d.val = d.val; omega
  · show V c main_arg5 (((cfg1.win 1).blk t).view.emb (ix2 e d)) = _
    refine congrArg _ ?_
    funext a; apply Fin.ext
    match a with
    | ⟨0, _⟩ => show win1_1.index t (0 : Fin 2) * 1024 + 1 * e.val = e.val; omega
    | ⟨1, _⟩ => show win1_1.index t (1 : Fin 2) * 1024 + 1 * d.val = d.val; omega
  · show V c main_arg6 (((cfg1.win 2).blk t).view.emb (ix1 e)) = _
    refine congrArg _ ?_
    funext a; apply Fin.ext
    match a with
    | ⟨0, _⟩ => show win1_2.index t (0 : Fin 1) * 1024 + 1 * e.val = e.val; omega

end

/-- An entry of the output array is in point t's block iff each coordinate is in the block's range. -/
theorem mem_blk (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Every entry of the output array is in the block of the point its row's quotient by 512 names. -/
theorem cover (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hlt : (i 0).val / 512 < 16 := by omega
  refine ⟨⟨(i 0).val / 512, hlt⟩, flush1_3 _, ?_⟩
  rw [mem_blk]
  obtain ⟨e0, e1, e2, e3, e4, e5, e6⟩ := idx_facts ⟨(i 0).val / 512, hlt⟩
  intro a
  match a with
  | ⟨0, _⟩ =>
    show win1_3.index _ (0 : Fin 2) * 512 ≤ (i 0).val ∧ (i 0).val < win1_3.index _ (0 : Fin 2) * 512 + 512
    rw [e5]
    show (i 0).val / 512 * 512 ≤ (i 0).val ∧ (i 0).val < (i 0).val / 512 * 512 + 512
    omega
  | ⟨1, _⟩ =>
    show win1_3.index _ (1 : Fin 2) * 1024 ≤ (i 1).val ∧ (i 1).val < win1_3.index _ (1 : Fin 2) * 1024 + 1024
    rw [e6]
    omega

/-- The region's output array after the run. -/
theorem final (V : (c : Dev nD) → (b : Ref sig .tc) → Buf (Elt Ideal) ((c : Thread nD τ).loc b)) (c : Dev nD) :
    (dat1 V c).arrAt 3 cfg1.N = linArr (V c main_v1) (V c main_arg5) (V c main_arg6) :=
  (dat1 V c).arrAt_eq_of_cover 3 _ (fun t _ => flushed_eq V c t) cover

end Cert.KernelIdeal.LinearRegion1

end
-- ==== Proof.LinearRegion2.lean ====
/-
  A projection region's output array after the run (region 2 of the program).

  The region runs the linear kernel's body at 16 grid points; at point t it finds rows 512·t … 512·t + 511 of the
  8192-row input matrix, the whole weight matrix and the whole bias, and writes back rows 512·t … 512·t + 511 of
  its output. What the body stores is x·Wᵀ + b of the rows it finds, so what point t writes back is block t of ONE
  function of the input arrays — x·Wᵀ + b of the whole matrix —, and as the 16 blocks tile the 8192 rows the output
  array ends holding that function.
-/
import proofs.«115554_j33449205301807_2_alg».proof.Proof.Gen.KernelIdeal.Frame
import proofs.«115554_j33449205301807_2_alg».proof.Proof.LinearBlock
import Idealize.ShloMosaic.Lib.ValueIdx
import Idealize.ShloMosaic.Lib.Pipeline.Value

set_option maxRecDepth 16384

noncomputable section

open scoped BigOperators

namespace Cert.KernelIdeal.LinearRegion2

open Cert.KernelIdeal Cert.KernelIdeal.Gen Idealize.ShloMosaic Idealize.ShloMosaic.TcCoe Idealize.ShloMosaic.ValueIdx Idealize.SL.Sem
open Idealize.ShloMosaic.Pipeline (Dat)

/-- x·Wᵀ + b on a matrix of 8192 rows: entry (r, e) is Σ_d X(r, d)·W(e, d) + b(e). -/
def linArr (X : S8192x1024.Idx → EReal) (W : S1024x1024.Idx → EReal) (b : S1024.Idx → EReal) : S8192x1024.Idx → EReal :=
  fun i => (∑ d : Fin 1024, X (ix2 ⟨(i 0).val, (i 0).isLt⟩ d) * W (ix2 ⟨(i 1).val, (i 1).isLt⟩ d)) + b (ix1 ⟨(i 1).val, (i 1).isLt⟩)

theorem linArr_apply (X : S8192x1024.Idx → EReal) (W : S1024x1024.Idx → EReal) (b : S1024.Idx → EReal) (r : Fin 8192) (e : Fin 1024) :
    linArr X W b (ix2 r e) = (∑ d : Fin 1024, X (ix2 r d) * W (ix2 e d)) + b (ix1 e) := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 points: the row blocks move with the point, the weights and bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point t writes back is block t of x·Wᵀ + b of the arrays the region finds. -/
theorem flushed_eq (c : Dev nD) (t : Fin cfg2.N) :
    (dat2 V c).flushed 3 t = ((cfg2.win 3).blk t).view.read (Elt Ideal) (linArr (V c main_v2) (V c main_arg7) (V c main_arg8)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, e, rfl⟩ : ∃ (p : Fin 512) (e : Fin 1024), j = ix2 p e := ⟨j 0, j 1, eq_ix2 j⟩
  have ht : t.val < 16 := t.isLt
  have hp := p.isLt
  have hemb3 : ((cfg2.win 3).blk t).view.emb (ix2 p e) = ix2 (⟨t.val * 512 + p.val, by omega⟩ : Fin 8192) e := by
    funext a; apply Fin.ext
    match a with
    | ⟨0, _⟩ => show win2_3.index t (0 : Fin 2) * 512 + 1 * p.val = t.val * 512 + p.val; omega
    | ⟨1, _⟩ => show win2_3.index t (1 : Fin 2) * 1024 + 1 * e.val = e.val; omega
  show k0_pay1 (iblk2 V c 0 t) (iblk2 V c 1 t) (iblk2 V c 2 t) (ix2 p e)
    = linArr (V c main_v2) (V c main_arg7) (V c main_arg8) (((cfg2.win 3).blk t).view.emb (ix2 p e))
  rw [hemb3, linArr_apply]
  refine (LinearBlock.pay_apply _ _ _ p e).trans ?_
  refine congrArg₂ (· + ·) (Finset.sum_congr rfl fun d _ => congrArg₂ (· * ·) ?_ ?_) ?_
  · show V c main_v2 (((cfg2.win 0).blk t).view.emb (ix2 p d)) = _
    refine congrArg _ ?_
    funext a; apply Fin.ext
    match a with
    | ⟨0, _⟩ => show win2_0.index t (0 : Fin 2) * 512 + 1 * p.val = t.val * 512 + p.val; omega
    | ⟨1, _⟩ => show win2_0.index t (1 : Fin 2) * 1024 + 1 * d.val = d.val; omega
  · show V c main_arg7 (((cfg2.win 1).blk t).view.emb (ix2 e d)) = _
    refine congrArg _ ?_
    funext a; apply Fin.ext
    match a with
    | ⟨0, _⟩ => show win2_1.index t (0 : Fin 2) * 1024 + 1 * e.val = e.val; omega
    | ⟨1, _⟩ => show win2_1.index t (1 : Fin 2) * 1024 + 1 * d.val = d.val; omega
  · show V c main_arg8 (((cfg2.win 2).blk t).view.emb (ix1 e)) = _
    refine congrArg _ ?_
    funext a; apply Fin.ext
    match a with
    | ⟨0, _⟩ => show win2_2.index t (0 : Fin 1) * 1024 + 1 * e.val = e.val; omega

end

/-- An entry of the output array is in point t's block iff each coordinate is in the block's range. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v5).slice (win2_3.rect t)).set ↔ _
  rw [View.set_slice_whole, Rect.mem_set_unit]
  exact Iff.rfl

/-- Every entry of the output array is in the block of the point its row's quotient by 512 names. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hlt : (i 0).val / 512 < 16 := by omega
  refine ⟨⟨(i 0).val / 512, hlt⟩, flush2_3 _, ?_⟩
  rw [mem_blk]
  obtain ⟨e0, e1, e2, e3, e4, e5, e6⟩ := idx_facts ⟨(i 0).val / 512, hlt⟩
  intro a
  match a with
  | ⟨0, _⟩ =>
    show win2_3.index _ (0 : Fin 2) * 512 ≤ (i 0).val ∧ (i 0).val < win2_3.index _ (0 : Fin 2) * 512 + 512
    rw [e5]
    show (i 0).val / 512 * 512 ≤ (i 0).val ∧ (i 0).val < (i 0).val / 512 * 512 + 512
    omega
  | ⟨1, _⟩ =>
    show win2_3.index _ (1 : Fin 2) * 1024 ≤ (i 1).val ∧ (i 1).val < win2_3.index _ (1 : Fin 2) * 1024 + 1024
    rw [e6]
    omega

/-- The region's output array after the run. -/
theorem final (V : (c : Dev nD) → (b : Ref sig .tc) → Buf (Elt Ideal) ((c : Thread nD τ).loc b)) (c : Dev nD) :
    (dat2 V c).arrAt 3 cfg2.N = linArr (V c main_v2) (V c main_arg7) (V c main_arg8) :=
  (dat2 V c).arrAt_eq_of_cover 3 _ (fun t _ => flushed_eq V c t) cover

end Cert.KernelIdeal.LinearRegion2

end
-- ==== Proof.LinearRegion4.lean ====
/-
  A projection region's output array after the run (region 4 of the program).

  The region runs the linear kernel's body at 16 grid points; at point t it finds rows 512·t … 512·t + 511 of the
  8192-row input matrix, the whole weight matrix and the whole bias, and writes back rows 512·t … 512·t + 511 of
  its output. What the body stores is x·Wᵀ + b of the rows it finds, so what point t writes back is block t of ONE
  function of the input arrays — x·Wᵀ + b of the whole matrix —, and as the 16 blocks tile the 8192 rows the output
  array ends holding that function.
-/
import proofs.«115554_j33449205301807_2_alg».proof.Proof.Gen.KernelIdeal.Frame
import proofs.«115554_j33449205301807_2_alg».proof.Proof.LinearBlock
import Idealize.ShloMosaic.Lib.ValueIdx
import Idealize.ShloMosaic.Lib.Pipeline.Value

set_option maxRecDepth 16384

noncomputable section

open scoped BigOperators

namespace Cert.KernelIdeal.LinearRegion4

open Cert.KernelIdeal Cert.KernelIdeal.Gen Idealize.ShloMosaic Idealize.ShloMosaic.TcCoe Idealize.ShloMosaic.ValueIdx Idealize.SL.Sem
open Idealize.ShloMosaic.Pipeline (Dat)

/-- x·Wᵀ + b on a matrix of 8192 rows: entry (r, e) is Σ_d X(r, d)·W(e, d) + b(e). -/
def linArr (X : S8192x1024.Idx → EReal) (W : S1024x1024.Idx → EReal) (b : S1024.Idx → EReal) : S8192x1024.Idx → EReal :=
  fun i => (∑ d : Fin 1024, X (ix2 ⟨(i 0).val, (i 0).isLt⟩ d) * W (ix2 ⟨(i 1).val, (i 1).isLt⟩ d)) + b (ix1 ⟨(i 1).val, (i 1).isLt⟩)

theorem linArr_apply (X : S8192x1024.Idx → EReal) (W : S1024x1024.Idx → EReal) (b : S1024.Idx → EReal) (r : Fin 8192) (e : Fin 1024) :
    linArr X W b (ix2 r e) = (∑ d : Fin 1024, X (ix2 r d) * W (ix2 e d)) + b (ix1 e) := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 points: the row blocks move with the point, the weights and bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- What point t writes back is block t of x·Wᵀ + b of the arrays the region finds. -/
theorem flushed_eq (c : Dev nD) (t : Fin cfg4.N) :
    (dat4 V c).flushed 3 t = ((cfg4.win 3).blk t).view.read (Elt Ideal) (linArr (V c main_v18) (V c main_arg9) (V c main_arg10)) := by
  show (cfg4.win 3).cut (grid4.coords t) ((dat4 V c).after 3 t) = _
  rw [after4_3]
  unfold out4_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, e, rfl⟩ : ∃ (p : Fin 512) (e : Fin 1024), j = ix2 p e := ⟨j 0, j 1, eq_ix2 j⟩
  have ht : t.val < 16 := t.isLt
  have hp := p.isLt
  have hemb3 : ((cfg4.win 3).blk t).view.emb (ix2 p e) = ix2 (⟨t.val * 512 + p.val, by omega⟩ : Fin 8192) e := by
    funext a; apply Fin.ext
    match a with
    | ⟨0, _⟩ => show win4_3.index t (0 : Fin 2) * 512 + 1 * p.val = t.val * 512 + p.val; omega
    | ⟨1, _⟩ => show win4_3.index t (1 : Fin 2) * 1024 + 1 * e.val = e.val; omega
  show k0_pay1 (iblk4 V c 0 t) (iblk4 V c 1 t) (iblk4 V c 2 t) (ix2 p e)
    = linArr (V c main_v18) (V c main_arg9) (V c main_arg10) (((cfg4.win 3).blk t).view.emb (ix2 p e))
  rw [hemb3, linArr_apply]
  refine (LinearBlock.pay_apply _ _ _ p e).trans ?_
  refine congrArg₂ (· + ·) (Finset.sum_congr rfl fun d _ => congrArg₂ (· * ·) ?_ ?_) ?_
  · show V c main_v18 (((cfg4.win 0).blk t).view.emb (ix2 p d)) = _
    refine congrArg _ ?_
    funext a; apply Fin.ext
    match a with
    | ⟨0, _⟩ => show win4_0.index t (0 : Fin 2) * 512 + 1 * p.val = t.val * 512 + p.val; omega
    | ⟨1, _⟩ => show win4_0.index t (1 : Fin 2) * 1024 + 1 * d.val = d.val; omega
  · show V c main_arg9 (((cfg4.win 1).blk t).view.emb (ix2 e d)) = _
    refine congrArg _ ?_
    funext a; apply Fin.ext
    match a with
    | ⟨0, _⟩ => show win4_1.index t (0 : Fin 2) * 1024 + 1 * e.val = e.val; omega
    | ⟨1, _⟩ => show win4_1.index t (1 : Fin 2) * 1024 + 1 * d.val = d.val; omega
  · show V c main_arg10 (((cfg4.win 2).blk t).view.emb (ix1 e)) = _
    refine congrArg _ ?_
    funext a; apply Fin.ext
    match a with
    | ⟨0, _⟩ => show win4_2.index t (0 : Fin 1) * 1024 + 1 * e.val = e.val; omega

end

/-- An entry of the output array is in point t's block iff each coordinate is in the block's range. -/
theorem mem_blk (t : Fin cfg4.N) (i : S8192x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v19).slice (win4_3.rect t)).set ↔ _
  rw [View.set_slice_whole, Rect.mem_set_unit]
  exact Iff.rfl

/-- Every entry of the output array is in the block of the point its row's quotient by 512 names. -/
theorem cover (i : S8192x1024.Idx) : ∃ t : Fin cfg4.N, (cfg4.win 3).flush t = true ∧ i ∈ ((cfg4.win 3).blk t).view.set := by
  have hi0 : (i 0).val < 8192 := (i 0).isLt
  have hi1 : (i 1).val < 1024 := (i 1).isLt
  have hlt : (i 0).val / 512 < 16 := by omega
  refine ⟨⟨(i 0).val / 512, hlt⟩, flush4_3 _, ?_⟩
  rw [mem_blk]
  obtain ⟨e0, e1, e2, e3, e4, e5, e6⟩ := idx_facts ⟨(i 0).val / 512, hlt⟩
  intro a
  match a with
  | ⟨0, _⟩ =>
    show win4_3.index _ (0 : Fin 2) * 512 ≤ (i 0).val ∧ (i 0).val < win4_3.index _ (0 : Fin 2) * 512 + 512
    rw [e5]
    show (i 0).val / 512 * 512 ≤ (i 0).val ∧ (i 0).val < (i 0).val / 512 * 512 + 512
    omega
  | ⟨1, _⟩ =>
    show win4_3.index _ (1 : Fin 2) * 1024 ≤ (i 1).val ∧ (i 1).val < win4_3.index _ (1 : Fin 2) * 1024 + 1024
    rw [e6]
    omega

/-- The region's output array after the run. -/
theorem final (V : (c : Dev nD) → (b : Ref sig .tc) → Buf (Elt Ideal) ((c : Thread nD τ).loc b)) (c : Dev nD) :
    (dat4 V c).arrAt 3 cfg4.N = linArr (V c main_v18) (V c main_arg9) (V c main_arg10) :=
  (dat4 V c).arrAt_eq_of_cover 3 _ (fun t _ => flushed_eq V c t) cover

end Cert.KernelIdeal.LinearRegion4

end
-- ==== Proof.AttnBlock.lean ====
/-
  The attention kernel's body at one entry: one block of 512 query rows against all 2048 keys and values of one
  (batch entry, head) pair. The body's arithmetic at row p and feature d is the softmax-weighted sum of the value
  rows, the weights taken from the row of scaled scores (Σ_d' q(p,d')·k(t,d'))·(1/8) with the row's maximum
  subtracted. Each non-pointwise operation (the two batched products, the row maximum, the row sum, the
  keep-dimension cast and its broadcast) is read at explicit coordinates by one small lemma; the main theorem
  chains them.
-/
import proofs.«115554_j33449205301807_2_alg».proof.Proof.Gen.KernelIdeal.Skeleton
import proofs.«115554_j33449205301807_2_alg».proof.Proof.MhaSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AttnBlock

open Cert.KernelIdeal Cert.KernelIdeal.Gen Idealize.ShloMosaic Idealize.ShloMosaic.ValueIdx

/-- The dimension numbers of the score product: batch axis 0 of both, contracting the feature axis 2 of both. -/
abbrev DQK : DotDims S1x512x64 S1x2048x64 S1x512x2048 := dot_S1x512x64_S1x2048x64_S1x512x2048_2_2_1_1_0_0
/-- The dimension numbers of the context product: batch axis 0 of both, contracting key axis 2 of the weights
    with axis 1 of the values. -/
abbrev DPV : DotDims S1x512x2048 S1x2048x64 S1x512x64 := dot_S1x512x2048_S1x2048x64_S1x512x64_2_1_1_2_0_0

/-! ## The score product's operand indices -/

theorem qk_lhs_0 (i : S1x512x2048.Idx) (q : DQK.contr.Idx) : (DQK.lhsIdx i q 0).val = (i 0).val := by
  unfold DotDims.lhsIdx
  rw [dif_pos (show (0 : Fin S1x512x64.rank) ∈ DQK.lhsBatch by decide)]
  rfl
theorem qk_lhs_1 (i : S1x512x2048.Idx) (q : DQK.contr.Idx) : (DQK.lhsIdx i q 1).val = (i 1).val := by
  unfold DotDims.lhsIdx
  rw [dif_neg (show ¬(1 : Fin S1x512x64.rank) ∈ DQK.lhsBatch by decide),
    dif_pos (show (1 : Fin S1x512x64.rank) ∈ DQK.lhsNonContracting by decide)]
  rfl
theorem qk_lhs_2 (i : S1x512x2048.Idx) (q : DQK.contr.Idx) : (DQK.lhsIdx i q 2).val = (q ⟨0, by decide⟩).val :=
  DQK.lhsIdx_val_of_single rfl i q
theorem qk_rhs_0 (i : S1x512x2048.Idx) (q : DQK.contr.Idx) : (DQK.rhsIdx i q 0).val = (i 0).val := by
  unfold DotDims.rhsIdx
  rw [dif_pos (show (0 : Fin S1x2048x64.rank) ∈ DQK.rhsBatch by decide)]
  rfl
theorem qk_rhs_1 (i : S1x512x2048.Idx) (q : DQK.contr.Idx) : (DQK.rhsIdx i q 1).val = (i 2).val := by
  unfold DotDims.rhsIdx
  rw [dif_neg (show ¬(1 : Fin S1x2048x64.rank) ∈ DQK.rhsBatch by decide),
    dif_pos (show (1 : Fin S1x2048x64.rank) ∈ DQK.rhsNonContracting by decide)]
  rfl
theorem qk_rhs_2 (i : S1x512x2048.Idx) (q : DQK.contr.Idx) : (DQK.rhsIdx i q 2).val = (q ⟨0, by decide⟩).val :=
  DQK.rhsIdx_val_of_single rfl i q

/-- The score product into zero at (0, p, t): the sum over the 64 features of q(p, ·)·k(t, ·). -/
theorem matmul_qk_apply {φ₁ φ₂ : FTy} (prec : Option ContractPrecision) (l : FVec Ideal S1x512x64 φ₁) (r : FVec Ideal S1x2048x64 φ₂)
    (p : Fin 512) (t : Fin 2048) :
    FloatOps.matmul DQK prec l r (constant S1x512x2048 .f32 0x00000000#32) (ix3 (0 : Fin 1) p t)
      = ∑ d' : Fin 64, l (ix3 (0 : Fin 1) p d') * r (ix3 (0 : Fin 1) t d') := by
  rw [Ideal.matmul_constant_zero_apply, ← Equiv.sum_comp (contrEquiv1 DQK 64 rfl rfl).symm]
  refine Finset.sum_congr rfl fun k _ => ?_
  have hk := contrEquiv1_symm_val DQK 64 rfl rfl k
  have el : DQK.lhsIdx (ix3 (0 : Fin 1) p t) ((contrEquiv1 DQK 64 rfl rfl).symm k) = ix3 (0 : Fin 1) p k := funext fun a => Fin.ext (by
    match a with
    | ⟨0, _⟩ => exact qk_lhs_0 _ _
    | ⟨1, _⟩ => exact qk_lhs_1 _ _
    | ⟨2, _⟩ => exact (qk_lhs_2 _ _).trans hk)
  have er : DQK.rhsIdx (ix3 (0 : Fin 1) p t) ((contrEquiv1 DQK 64 rfl rfl).symm k) = ix3 (0 : Fin 1) t k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ## The context product's operand indices -/

theorem pv_lhs_0 (i : S1x512x64.Idx) (q : DPV.contr.Idx) : (DPV.lhsIdx i q 0).val = (i 0).val := by
  unfold DotDims.lhsIdx
  rw [dif_pos (show (0 : Fin S1x512x2048.rank) ∈ DPV.lhsBatch by decide)]
  rfl
theorem pv_lhs_1 (i : S1x512x64.Idx) (q : DPV.contr.Idx) : (DPV.lhsIdx i q 1).val = (i 1).val := by
  unfold DotDims.lhsIdx
  rw [dif_neg (show ¬(1 : Fin S1x512x2048.rank) ∈ DPV.lhsBatch by decide),
    dif_pos (show (1 : Fin S1x512x2048.rank) ∈ DPV.lhsNonContracting by decide)]
  rfl
theorem pv_lhs_2 (i : S1x512x64.Idx) (q : DPV.contr.Idx) : (DPV.lhsIdx i q 2).val = (q ⟨0, by decide⟩).val :=
  DPV.lhsIdx_val_of_single rfl i q
theorem pv_rhs_0 (i : S1x512x64.Idx) (q : DPV.contr.Idx) : (DPV.rhsIdx i q 0).val = (i 0).val := by
  unfold DotDims.rhsIdx
  rw [dif_pos (show (0 : Fin S1x2048x64.rank) ∈ DPV.rhsBatch by decide)]
  rfl
theorem pv_rhs_1 (i : S1x512x64.Idx) (q : DPV.contr.Idx) : (DPV.rhsIdx i q 1).val = (q ⟨0, by decide⟩).val :=
  DPV.rhsIdx_val_of_single rfl i q
theorem pv_rhs_2 (i : S1x512x64.Idx) (q : DPV.contr.Idx) : (DPV.rhsIdx i q 2).val = (i 2).val := by
  unfold DotDims.rhsIdx
  rw [dif_neg (show ¬(2 : Fin S1x2048x64.rank) ∈ DPV.rhsBatch by decide),
    dif_pos (show (2 : Fin S1x2048x64.rank) ∈ DPV.rhsNonContracting by decide)]
  rfl

/-- The context product into zero at (0, p, d): the sum over the 2048 keys of w(p, ·)·v(·, d). -/
theorem matmul_pv_apply {φ₁ φ₂ : FTy} (prec : Option ContractPrecision) (l : FVec Ideal S1x512x2048 φ₁) (r : FVec Ideal S1x2048x64 φ₂)
    (p : Fin 512) (d : Fin 64) :
    FloatOps.matmul DPV prec l r (constant S1x512x64 .f32 0x00000000#32) (ix3 (0 : Fin 1) p d)
      = ∑ t : Fin 2048, l (ix3 (0 : Fin 1) p t) * r (ix3 (0 : Fin 1) t d) := by
  rw [Ideal.matmul_constant_zero_apply, ← Equiv.sum_comp (contrEquiv1 DPV 2048 rfl rfl).symm]
  refine Finset.sum_congr rfl fun k _ => ?_
  have hk := contrEquiv1_symm_val DPV 2048 rfl rfl k
  have el : DPV.lhsIdx (ix3 (0 : Fin 1) p d) ((contrEquiv1 DPV 2048 rfl rfl).symm k) = ix3 (0 : Fin 1) p k := funext fun a => Fin.ext (by
    match a with
    | ⟨0, _⟩ => exact pv_lhs_0 _ _
    | ⟨1, _⟩ => exact pv_lhs_1 _ _
    | ⟨2, _⟩ => exact (pv_lhs_2 _ _).trans hk)
  have er : DPV.rhsIdx (ix3 (0 : Fin 1) p d) ((contrEquiv1 DPV 2048 rfl rfl).symm k) = ix3 (0 : Fin 1) k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## The reductions over the key axis, read at (0, p) -/

/-- The index of row (0, p) with key coordinate t inserted on the reduced axis is (0, p, t). -/
theorem lift_row (h : S1x512x2048.Reduces [2] S1x512) (p : Fin 512) (t : Fin 2048) :
    h.lift (ix2 (0 : Fin 1) p) t = ix3 (0 : Fin 1) p t := funext fun a => Fin.ext (by
  match a with
  | ⟨0, _⟩ => rfl
  | ⟨1, _⟩ => rfl
  | ⟨2, _⟩ => rfl)

/-- The binary32 word of −∞ is the least extended real. -/
theorem ofBits_neg_inf : FloatOps.ofBits (F := Ideal) .f32 0xFF800000#32 = (⊥ : EReal) := by
  rw [Ideal.ofBits_def]; simp [Ideal.ofBits, Ideal.ieee]

/-- The maximum over the key axis from −∞, at (0, p): the greatest entry of the row. -/
theorem rowmax_apply (S : FVec Ideal S1x512x2048 .f32) (h : S1x512x2048.Reduces [2] S1x512) (hφ : FKind.Formats .f32)
    (hacc : (0xFF800000#32 : BitVec 32) = 0xFF800000#32) (p : Fin 512) :
    multiReduction .maximumf [2] S1x512 S 0xFF800000#32 h hφ hacc (ix2 (0 : Fin 1) p)
      = Cert.Mha.rowmax (fun t : Fin 2048 => S (ix3 (0 : Fin 1) p t)) := by
  refine (Ideal.multiReduction_maximumf_single S 0xFF800000#32 h hφ hacc (ix2 (0 : Fin 1) p)).trans ?_
  unfold Cert.Mha.rowmax
  show Finset.univ.fold max _ (fun t : Fin 2048 => S (h.lift (ix2 (0 : Fin 1) p) t)) = _
  rw [ofBits_neg_inf]
  simp only [lift_row]

/-- The sum over the key axis from zero, at (0, p): the sum of the row. -/
theorem rowsum_apply (E : FVec Ideal S1x512x2048 .f32) (h : S1x512x2048.Reduces [2] S1x512) (hφ : FKind.Formats .f32)
    (hacc : (0x00000000#32 : BitVec 32) = 0x00000000#32) (p : Fin 512) :
    multiReduction .add [2] S1x512 E 0x00000000#32 h hφ hacc (ix2 (0 : Fin 1) p)
      = ∑ t : Fin 2048, E (ix3 (0 : Fin 1) p t) := by
  refine (Ideal.multiReduction_add_single E 0x00000000#32 h hφ hacc (ix2 (0 : Fin 1) p)).trans ?_
  show ∑ t : Fin 2048, E (h.lift (ix2 (0 : Fin 1) p) t) = _
  simp only [lift_row]

/-! ## A per-row value put back on the key axis -/

/-- A [1, 512] array cast to [1, 512, 1] and broadcast along the key axis reads, at (0, p, t), the row's value. -/
theorem keepdim_apply {α : Type} (v : S1x512.Idx → α) (hc : S1x512.ShapeCasts S1x512x1) (hb : S1x512x1.Broadcasts S1x512x2048)
    (p : Fin 512) (t : Fin 2048) :
    broadcastTo S1x512x2048 (shapeCast S1x512x1 v hc) hb (ix3 (0 : Fin 1) p t) = v (ix2 (0 : Fin 1) p) := by
  refine (broadcastTo_apply _ hb (ix3 (0 : Fin 1) p t) (ix3 (0 : Fin 1) p (0 : Fin 1)) ?_).trans ?_
  · intro a
    match a with
    | ⟨0, _⟩ => rfl
    | ⟨1, _⟩ => rfl
    | ⟨2, _⟩ => rfl
  · exact shapeCast_apply v hc (ix3 (0 : Fin 1) p (0 : Fin 1)) (ix2 (0 : Fin 1) p) (by
      rw [Shape.rowMajor_val_two, Shape.rowMajor_val_three]
      show 0 * 512 + p.val = (0 * 512 + p.val) * 1 + 0
      omega)

/-! ## The softmax of the rows -/

/-- The exponentials of a block of scores, each row's maximum subtracted first. -/
abbrev expShift (S : FVec Ideal S1x512x2048 .f32) (hr : S1x512x2048.Reduces [2] S1x512) (hφ : FKind.Formats .f32)
    (hm : (0xFF800000#32 : BitVec 32) = 0xFF800000#32) (hc : S1x512.ShapeCasts S1x512x1) (hb : S1x512x1.Broadcasts S1x512x2048) :
    FVec Ideal S1x512x2048 .f32 :=
  exp (subf S (broadcastTo S1x512x2048 (shapeCast S1x512x1 (multiReduction .maximumf [2] S1x512 S 0xFF800000#32 hr hφ hm) hc) hb))

/-- At (0, p, u) it is exp(S(p, u) − max of row p). -/
theorem expShift_apply (S : FVec Ideal S1x512x2048 .f32) (hr : S1x512x2048.Reduces [2] S1x512) (hφ : FKind.Formats .f32)
    (hm : (0xFF800000#32 : BitVec 32) = 0xFF800000#32) (hc : S1x512.ShapeCasts S1x512x1) (hb : S1x512x1.Broadcasts S1x512x2048)
    (p : Fin 512) (u : Fin 2048) :
    expShift S hr hφ hm hc hb (ix3 (0 : Fin 1) p u)
      = Ideal.exp (S (ix3 (0 : Fin 1) p u) - Cert.Mha.rowmax (fun t : Fin 2048 => S (ix3 (0 : Fin 1) p t))) := by
  show Ideal.exp (S (ix3 (0 : Fin 1) p u)
    - broadcastTo S1x512x2048 (shapeCast S1x512x1 (multiReduction .maximumf [2] S1x512 S 0xFF800000#32 hr hφ hm) hc) hb (ix3 (0 : Fin 1) p u)) = _
  rw [keepdim_apply, rowmax_apply]

/-- The exponentials divided by their row sums: at (0, p, t) the softmax weight of entry t of row p. -/
theorem softmax_apply (S : FVec Ideal S1x512x2048 .f32) (hr : S1x512x2048.Reduces [2] S1x512) (hφ : FKind.Formats .f32)
    (hm : (0xFF800000#32 : BitVec 32) = 0xFF800000#32) (ha : (0x00000000#32 : BitVec 32) = 0x00000000#32)
    (hc : S1x512.ShapeCasts S1x512x1) (hb : S1x512x1.Broadcasts S1x512x2048) (p : Fin 512) (t : Fin 2048) :
    divf (expShift S hr hφ hm hc hb)
      (broadcastTo S1x512x2048 (shapeCast S1x512x1
        (multiReduction .add [2] S1x512 (expShift S hr hφ hm hc hb) 0x00000000#32 hr hφ ha) hc) hb) (ix3 (0 : Fin 1) p t)
      = Cert.Mha.weight (fun u : Fin 2048 => S (ix3 (0 : Fin 1) p u)) t := by
  rw [divf_apply, keepdim_apply, rowsum_apply]
  unfold Cert.Mha.weight
  simp only [expShift_apply]

/-! ## The body at one entry -/

/-- The attention body at row p, feature d of its block: the value rows weighted by the softmax of row p's scaled
    scores against every key. -/
theorem attn_pay_apply (x0 : Vec Ideal S1x512x64 .f32) (x1 x2 : Vec Ideal S1x2048x64 .f32) (p : Fin 512) (d : Fin 64) :
    k3_pay1 (F := Ideal) x0 x1 x2 (ix3 (0 : Fin 1) p d)
      = ∑ t : Fin 2048, Cert.Mha.weight (fun u : Fin 2048 => (∑ d' : Fin 64, x0 (ix3 (0 : Fin 1) p d') * x1 (ix3 (0 : Fin 1) u d')) * Cert.Mha.scale) t * x2 (ix3 (0 : Fin 1) t d) := by
  unfold k3_pay1
  refine (matmul_pv_apply none _ _ p d).trans ?_
  refine Finset.sum_congr rfl fun t _ => ?_
  simp only [truncf_apply, shapeCast_self]
  refine congrArg (· * x2 (ix3 (0 : Fin 1) t d)) ?_
  refine (softmax_apply _ _ _ _ _ _ _ p t).trans ?_
  refine congrArg (fun r => Cert.Mha.weight r t) (funext fun u => ?_)
  rw [mulf_apply, broadcast_apply]
  refine congrArg (· * Cert.Mha.scale) ?_
  refine (matmul_qk_apply none _ _ p u).trans ?_
  refine Finset.sum_congr rfl fun d' _ => ?_
  rw [truncf_apply, truncf_apply]

end Cert.KernelIdeal.AttnBlock

end
-- ==== Proof.AttnRegion.lean ====
/-
  The attention region's output array after the run.

  The region runs the attention kernel's body at 64 × 4 grid points; at point (b, j) it finds query rows
  512·j … 512·j + 511 of slab b, and slab b's keys and values whole, and writes back rows 512·j … 512·j + 511 of slab
  b of its output. What the body stores is, for each of its query rows, the values weighted by the softmax of the
  row's scores against all 2048 keys, so what a point writes back is a block of ONE function of the three input
  arrays — softmax attention slab by slab —, and as the 256 blocks tile the 64 slabs of 2048 rows the output array
  ends holding that function.
-/
import proofs.«115554_j33449205301807_2_alg».proof.Proof.Gen.KernelIdeal.Frame
import proofs.«115554_j33449205301807_2_alg».proof.Proof.MhaSpec
import proofs.«115554_j33449205301807_2_alg».proof.Proof.AttnBlock
import Idealize.ShloMosaic.Lib.ValueIdx
import Idealize.ShloMosaic.Lib.Pipeline.Value

set_option maxRecDepth 16384

noncomputable section

open scoped BigOperators

namespace Cert.KernelIdeal.AttnRegion

open Cert.KernelIdeal Cert.KernelIdeal.Gen Idealize.ShloMosaic Idealize.ShloMosaic.TcCoe Idealize.ShloMosaic.ValueIdx Idealize.SL.Sem
open Idealize.ShloMosaic.Pipeline (Dat)

/-- Softmax attention slab by slab: entry (b, s, d) is the values of slab b weighted by the softmax of row s's scores. -/
def attnArr (Q K U : S64x2048x64.Idx → EReal) : S64x2048x64.Idx → EReal := fun i =>
  ∑ t : Fin 2048, Cert.Mha.weight (fun u : Fin 2048 =>
      (∑ d' : Fin 64, Q (ix3 ⟨(i 0).val, (i 0).isLt⟩ ⟨(i 1).val, (i 1).isLt⟩ d') * K (ix3 ⟨(i 0).val, (i 0).isLt⟩ u d')) * Cert.Mha.scale) t
    * U (ix3 ⟨(i 0).val, (i 0).isLt⟩ t ⟨(i 2).val, (i 2).isLt⟩)

theorem attnArr_apply (Q K U : S64x2048x64.Idx → EReal) (b : Fin 64) (s : Fin 2048) (d : Fin 64) :
    attnArr Q K U (ix3 b s d) = ∑ t : Fin 2048, Cert.Mha.weight (fun u : Fin 2048 =>
      (∑ d' : Fin 64, Q (ix3 b s d') * K (ix3 b u d')) * Cert.Mha.scale) t * U (ix3 b t d) := rfl

theorem hz3 : (![0, 0, 0] : Fin 3 → Nat) = fun _ => 0 := funext fun a => by fin_cases a <;> rfl

theorem idx_facts : ∀ t : Fin cfg3.N,
    win3_3.index t (0 : Fin 3) = t.val / 4 ∧ win3_3.index t (1 : Fin 3) = t.val % 4 ∧ win3_3.index t (2 : Fin 3) = 0
    ∧ win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0 :=
  (by decide +kernel : ∀ t : Fin grid3.N, _)

section
variable (V : (c : Dev nD) → (b : Ref sig .tc) → Buf (Elt Ideal) ((c : Thread nD τ).loc b))

theorem flushed_eq (c : Dev nD) (t : Fin cfg3.N) :
    (dat3 V c).flushed 3 t = ((cfg3.win 3).blk t).view.read (Elt Ideal) (attnArr (V c main_v8) (V c main_v11) (V c main_v14)) := by
  show (cfg3.win 3).cut (grid3.coords t) ((dat3 V c).after 3 t) = _
  rw [after3_3]
  unfold out3_3
  rw [View.canon_unit_zero hz3]
  simp only [View.ld_unit_zero (S := S1x512x64) hz3, View.ld_unit_zero (S := S1x2048x64) hz3]
  obtain ⟨e0, e1, e2, e3, e4, e5, e6, e7, e8, e9, e10, e11⟩ := idx_facts t
  funext j
  obtain ⟨u0, p, d, rfl⟩ : ∃ (u0 : Fin 1) (p : Fin 512) (d : Fin 64), j = ix3 u0 p d := ⟨j 0, j 1, j 2, eq_ix3 j⟩
  have hu0 : u0 = 0 := Subsingleton.elim _ _
  subst hu0
  have ht : t.val < 256 := t.isLt
  have hp := p.isLt
  have hemb3 : ((cfg3.win 3).blk t).view.emb (ix3 (0 : Fin 1) p d)
      = ix3 (⟨t.val / 4, by omega⟩ : Fin 64) (⟨t.val % 4 * 512 + p.val, by omega⟩ : Fin 2048) d := by
    funext a; apply Fin.ext
    match a with
    | ⟨0, _⟩ => show win3_3.index t (0 : Fin 3) * 1 + 1 * 0 = t.val / 4; omega
    | ⟨1, _⟩ => show win3_3.index t (1 : Fin 3) * 512 + 1 * p.val = t.val % 4 * 512 + p.val; omega
    | ⟨2, _⟩ => show win3_3.index t (2 : Fin 3) * 64 + 1 * d.val = d.val; omega
  show k3_pay1 (iblk3 V c 0 t) (iblk3 V c 1 t) (iblk3 V c 2 t) (ix3 (0 : Fin 1) p d)
    = attnArr (V c main_v8) (V c main_v11) (V c main_v14) (((cfg3.win 3).blk t).view.emb (ix3 (0 : Fin 1) p d))
  rw [hemb3, attnArr_apply]
  refine (AttnBlock.attn_pay_apply _ _ _ p d).trans ?_
  refine Finset.sum_congr rfl fun t' _ => congrArg₂ (· * ·) (congrArg (fun r => Cert.Mha.weight r t') (funext fun u =>
    congrArg (· * Cert.Mha.scale) (Finset.sum_congr rfl fun d' _ => congrArg₂ (· * ·) ?_ ?_))) ?_
  · show V c main_v8 (((cfg3.win 0).blk t).view.emb (ix3 (0 : Fin 1) p d')) = _
    refine congrArg _ ?_
    funext a; apply Fin.ext
    match a with
    | ⟨0, _⟩ => show win3_0.index t (0 : Fin 3) * 1 + 1 * 0 = t.val / 4; omega
    | ⟨1, _⟩ => show win3_0.index t (1 : Fin 3) * 512 + 1 * p.val = t.val % 4 * 512 + p.val; omega
    | ⟨2, _⟩ => show win3_0.index t (2 : Fin 3) * 64 + 1 * d'.val = d'.val; omega
  · show V c main_v11 (((cfg3.win 1).blk t).view.emb (ix3 (0 : Fin 1) u d')) = _
    refine congrArg _ ?_
    funext a; apply Fin.ext
    match a with
    | ⟨0, _⟩ => show win3_1.index t (0 : Fin 3) * 1 + 1 * 0 = t.val / 4; omega
    | ⟨1, _⟩ => show win3_1.index t (1 : Fin 3) * 2048 + 1 * u.val = u.val; omega
    | ⟨2, _⟩ => show win3_1.index t (2 : Fin 3) * 64 + 1 * d'.val = d'.val; omega
  · show V c main_v14 (((cfg3.win 2).blk t).view.emb (ix3 (0 : Fin 1) t' d)) = _
    refine congrArg _ ?_
    funext a; apply Fin.ext
    match a with
    | ⟨0, _⟩ => show win3_2.index t (0 : Fin 3) * 1 + 1 * 0 = t.val / 4; omega
    | ⟨1, _⟩ => show win3_2.index t (1 : Fin 3) * 2048 + 1 * t'.val = t'.val; omega
    | ⟨2, _⟩ => show win3_2.index t (2 : Fin 3) * 64 + 1 * d.val = d.val; omega

theorem mem_blk (t : Fin cfg3.N) (i : S64x2048x64.Idx) :
    i ∈ ((cfg3.win 3).blk t).view.set ↔ ∀ a : Fin 3, win3_3.index t a * S1x512x64.size a ≤ (i a).val ∧ (i a).val < win3_3.index t a * S1x512x64.size a + S1x512x64.size a := by
  show i ∈ ((View.whole main_v15).slice (win3_3.rect t)).set ↔ _
  rw [View.set_slice_whole, Rect.mem_set_unit]
  exact Iff.rfl

theorem cover (i : S64x2048x64.Idx) : ∃ t : Fin cfg3.N, (cfg3.win 3).flush t = true ∧ i ∈ ((cfg3.win 3).blk t).view.set := by
  have hi0 : (i 0).val < 64 := (i 0).isLt
  have hi1 : (i 1).val < 2048 := (i 1).isLt
  have hi2 : (i 2).val < 64 := (i 2).isLt
  have hlt : (i 0).val * 4 + (i 1).val / 512 < 256 := by omega
  refine ⟨⟨(i 0).val * 4 + (i 1).val / 512, hlt⟩, flush3_3 _, ?_⟩
  rw [mem_blk]
  obtain ⟨e0, e1, e2, -⟩ := idx_facts ⟨(i 0).val * 4 + (i 1).val / 512, hlt⟩
  intro a
  match a with
  | ⟨0, _⟩ => show win3_3.index _ (0 : Fin 3) * 1 ≤ (i 0).val ∧ (i 0).val < win3_3.index _ (0 : Fin 3) * 1 + 1; rw [e0]; show ((i 0).val * 4 + (i 1).val / 512) / 4 * 1 ≤ (i 0).val ∧ (i 0).val < ((i 0).val * 4 + (i 1).val / 512) / 4 * 1 + 1; omega
  | ⟨1, _⟩ => show win3_3.index _ (1 : Fin 3) * 512 ≤ (i 1).val ∧ (i 1).val < win3_3.index _ (1 : Fin 3) * 512 + 512; rw [e1]; show ((i 0).val * 4 + (i 1).val / 512) % 4 * 512 ≤ (i 1).val ∧ (i 1).val < ((i 0).val * 4 + (i 1).val / 512) % 4 * 512 + 512; omega
  | ⟨2, _⟩ => show win3_3.index _ (2 : Fin 3) * 64 ≤ (i 2).val ∧ (i 2).val < win3_3.index _ (2 : Fin 3) * 64 + 64; rw [e2]; omega

/-- The attention region's output array after the run. -/
theorem final (c : Dev nD) : (dat3 V c).arrAt 3 cfg3.N = attnArr (V c main_v8) (V c main_v11) (V c main_v14) :=
  (dat3 V c).arrAt_eq_of_cover 3 _ (fun t _ => flushed_eq V c t) cover

end
end Cert.KernelIdeal.AttnRegion
end
-- ==== Proof.KernelValue.lean ====
/-
  The tiled program computes the attention layer.

  Entry by entry, from the launch memory: each projection region leaves x·Wᵀ + b of its activation's rows (its
  blocks of 512 rows tile the 8192); split into heads these are the queries, keys and values the attention region
  finds, slab n·16 + h holding head h of batch entry n; the attention region leaves each slab's contexts (its blocks
  of 512 query rows tile a slab's 2048, and it sees a slab's keys and values whole); the heads put back side by side
  are the rows the output projection finds; and the result is its rows viewed as an activation again. Each step
  reads one array at an entry through the re-layout before it, so the result at (n, s, e) is the specification's
  value there.
-/
import proofs.«115554_j33449205301807_2_alg».proof.Proof.HostGlue
import proofs.«115554_j33449205301807_2_alg».proof.Proof.MhaLayout
import proofs.«115554_j33449205301807_2_alg».proof.Proof.LinearRegion0
import proofs.«115554_j33449205301807_2_alg».proof.Proof.LinearRegion1
import proofs.«115554_j33449205301807_2_alg».proof.Proof.LinearRegion2
import proofs.«115554_j33449205301807_2_alg».proof.Proof.LinearRegion4
import proofs.«115554_j33449205301807_2_alg».proof.Proof.AttnRegion

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx Idealize.SL.Sem
open Cert.Mha Cert.MhaLayout

variable (m : (ℓ : Loc nD τ sig) → Buf (Elt Ideal) ℓ) (ρ : Dev nD → PrngReg) (c : Dev nD)

/-- The queries, keys and values by coordinates: the three projections of the launch contents. -/
def Qt : Tab := proj (tab (m ((c : Thread nD τ).loc main_arg0))) (m ((c : Thread nD τ).loc main_arg3)) (m ((c : Thread nD τ).loc main_arg4))
def Kt : Tab := proj (tab (m ((c : Thread nD τ).loc main_arg1))) (m ((c : Thread nD τ).loc main_arg5)) (m ((c : Thread nD τ).loc main_arg6))
def Vt : Tab := proj (tab (m ((c : Thread nD τ).loc main_arg2))) (m ((c : Thread nD τ).loc main_arg7)) (m ((c : Thread nD τ).loc main_arg8))

/-! ## The three projection regions' outputs, by rows -/

theorem q_rows (n : Fin 4) (s : Fin 2048) (e : Fin 1024) :
    (dat0 (V1 m ρ) c).arrAt 3 cfg0.N (ix2 (row n s) e) = Qt m c n s e := by
  refine (congrFun (LinearRegion0.final (V1 m ρ) c) (ix2 (row n s) e)).trans ?_
  rw [LinearRegion0.linArr_apply, Glue.V1_v0, Glue.V1_arg3, Glue.V1_arg4]
  unfold Qt proj tab
  exact congrArg₂ (· + ·) (Finset.sum_congr rfl fun d _ => congrArg₂ (· * ·) (flat_apply _ _ n s d) rfl) rfl

theorem k_rows (n : Fin 4) (s : Fin 2048) (e : Fin 1024) :
    (dat1 (V2 m ρ) c).arrAt 3 cfg1.N (ix2 (row n s) e) = Kt m c n s e := by
  refine (congrFun (LinearRegion1.final (V2 m ρ) c) (ix2 (row n s) e)).trans ?_
  rw [LinearRegion1.linArr_apply, Glue.V2_v1, Glue.V2_arg5, Glue.V2_arg6]
  unfold Kt proj tab
  exact congrArg₂ (· + ·) (Finset.sum_congr rfl fun d _ => congrArg₂ (· * ·) (flat_apply _ _ n s d) rfl) rfl

theorem v_rows (n : Fin 4) (s : Fin 2048) (e : Fin 1024) :
    (dat2 (V3 m ρ) c).arrAt 3 cfg2.N (ix2 (row n s) e) = Vt m c n s e := by
  refine (congrFun (LinearRegion2.final (V3 m ρ) c) (ix2 (row n s) e)).trans ?_
  rw [LinearRegion2.linArr_apply, Glue.V3_v2, Glue.V3_arg7, Glue.V3_arg8]
  unfold Vt proj tab
  exact congrArg₂ (· + ·) (Finset.sum_congr rfl fun d _ => congrArg₂ (· * ·) (flat_apply _ _ n s d) rfl) rfl

/-! ## What the attention region finds: the projections by heads -/

theorem q_heads (n : Fin 4) (h : Fin 16) (s : Fin 2048) (d : Fin 64) :
    V5 m ρ c main_v8 (ix3 (slab n h) s d) = Qt m c n s (feat h d) := by
  rw [Glue.V5_v8]
  refine (heads_apply _ _ _ _ n h s d).trans ?_
  rw [Glue.W4_v3]
  exact q_rows m ρ c n s (feat h d)

theorem k_heads (n : Fin 4) (h : Fin 16) (s : Fin 2048) (d : Fin 64) :
    V5 m ρ c main_v11 (ix3 (slab n h) s d) = Kt m c n s (feat h d) := by
  rw [Glue.V5_v11]
  refine (heads_apply _ _ _ _ n h s d).trans ?_
  rw [Glue.W4_v4]
  exact k_rows m ρ c n s (feat h d)

theorem v_heads (n : Fin 4) (h : Fin 16) (s : Fin 2048) (d : Fin 64) :
    V5 m ρ c main_v14 (ix3 (slab n h) s d) = Vt m c n s (feat h d) := by
  rw [Glue.V5_v14]
  refine (heads_apply _ _ _ _ n h s d).trans ?_
  rw [Glue.W4_v5]
  exact v_rows m ρ c n s (feat h d)

/-! ## The attention region's output: each slab's contexts -/

theorem contexts (n : Fin 4) (h : Fin 16) (s : Fin 2048) (d : Fin 64) :
    (dat3 (V5 m ρ) c).arrAt 3 cfg3.N (ix3 (slab n h) s d) = ctx (Qt m c) (Kt m c) (Vt m c) n h s d := by
  refine (congrFun (AttnRegion.final (V5 m ρ) c) (ix3 (slab n h) s d)).trans ?_
  rw [AttnRegion.attnArr_apply]
  unfold ctx score
  show @Eq EReal _ _
  refine Finset.sum_congr rfl fun t _ => congrArg₂ (· * ·) (congrArg (fun r => weight r t) (funext fun u =>
    congrArg (· * scale) (Finset.sum_congr rfl fun d' _ => congrArg₂ (· * ·) ?_ ?_))) ?_
  · exact q_heads m ρ c n h s d'
  · exact k_heads m ρ c n h u d'
  · exact v_heads m ρ c n h t d

/-! ## What the output projection finds: the contexts with the heads side by side -/

theorem merged_rows (n : Fin 4) (s : Fin 2048) (e : Fin 1024) :
    V7 m ρ c main_v18 (ix2 (row n s) e) = merged (Qt m c) (Kt m c) (Vt m c) n s e := by
  have he := feat_div_mod e
  have key : ∀ (h : Fin 16) (d : Fin 64), V7 m ρ c main_v18 (ix2 (row n s) (feat h d)) = ctx (Qt m c) (Kt m c) (Vt m c) n h s d := by
    intro h d
    rw [Glue.V7_v18]
    exact (unheads_apply _ _ _ _ n h s d).trans (contexts m ρ c n h s d)
  show _ = ctx (Qt m c) (Kt m c) (Vt m c) n ⟨e.val / 64, by have := e.isLt; omega⟩ s ⟨e.val % 64, Nat.mod_lt _ (by decide)⟩
  rw [← key, he]

/-! ## The result -/

theorem out_rows (n : Fin 4) (s : Fin 2048) (e : Fin 1024) :
    (dat4 (V7 m ρ) c).arrAt 3 cfg4.N (ix2 (row n s) e)
      = proj (merged (Qt m c) (Kt m c) (Vt m c)) (m ((c : Thread nD τ).loc main_arg9)) (m ((c : Thread nD τ).loc main_arg10)) n s e := by
  refine (congrFun (LinearRegion4.final (V7 m ρ) c) (ix2 (row n s) e)).trans ?_
  rw [LinearRegion4.linArr_apply, Glue.V7_arg9, Glue.V7_arg10]
  unfold proj
  exact congrArg₂ (· + ·) (Finset.sum_congr rfl fun d _ => congrArg₂ (· * ·) (merged_rows m ρ c n s d) rfl) rfl

/-- The result array at the last boundary is the attention layer of the launch contents. -/
theorem result_eq :
    W9 m ρ c (Proc.devRef .tc main_v20)
      = Cert.Mha.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [Glue.W9_v20]
  funext i
  obtain ⟨n, s, e, rfl⟩ : ∃ (n : Fin 4) (s : Fin 2048) (e : Fin 1024), i = ix3 n s e := ⟨i 0, i 1, i 2, eq_ix3 i⟩
  rw [out_apply]
  exact (unflat_apply _ _ n s e).trans (out_rows m ρ c n s e)

end Cert.KernelIdeal.KernelValue

end
-- ==== Proof.RefValue.lean ====
/-
  The whole-array program read entry by entry: each of its stages, at given coordinates, is the corresponding stage of
  multi-head attention over the extended reals (MhaSpec.lean), and so its result is the attention layer `Cert.Mha.out`.
  The stages are read bottom up: the three linear layers, their split into heads, the scaled scores, the row maximum
  (a fold of max from the least extended real), the exponentials and their sum, the softmax weights, the contexts,
  the heads side by side again, and the output layer.
-/
import proofs.«115554_j33449205301807_2_alg».proof.Proof.Gen.ReferenceIdeal.Read
import proofs.«115554_j33449205301807_2_alg».proof.Proof.MhaSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- An activation array [4, 2048, 1024] of extended reals. -/
abbrev A3 : Type := (⟨S4x2048x1024, .f32⟩ : BufTy).Contents (Elt Ideal)
/-- A weight matrix [1024, 1024] of extended reals. -/
abbrev W2 : Type := (⟨S1024x1024, .f32⟩ : BufTy).Contents (Elt Ideal)
/-- A bias vector [1024] of extended reals. -/
abbrev B1 : Type := (⟨S1024, .f32⟩ : BufTy).Contents (Elt Ideal)

/-! ## The linear layers -/

/-- A linear layer at (n, s, e): the sum over the input features of activation times weight, plus the bias. -/
theorem proj_read (y : A3) (w : W2) (b : B1) (n : Fin 4) (s : Fin 2048) (e : Fin 1024) :
    val_main_v3 (F := Ideal) y w b (ix3 n s e) = Mha.proj (Mha.tab y) w b n s e := by
  rw [val_main_v3_apply, val_main_v0_apply, val_main_v2_apply, val_main_v1_apply]
  have hl : ∀ k : Fin 1024, lidx_main_v0 (ix3 n s e) k = ix3 n s k := fun k => funext fun a => by
    match a with
    | ⟨0, _⟩ => rfl
    | ⟨1, _⟩ => rfl
    | ⟨2, _⟩ => rfl
  have hr : ∀ k : Fin 1024, ridx_main_v0 (ix3 n s e) k = ix2 e k := fun k => funext fun a => by
    match a with
    | ⟨0, _⟩ => rfl
    | ⟨1, _⟩ => rfl
  have hb : idx_main_v1 (idx_main_v2 (ix3 n s e)) = ix1 e := funext fun a => by
    match a with
    | ⟨0, _⟩ => rfl
  simp only [hl, hr, hb]
  rfl

/-- The second and third linear layers are the same linear layer, of the other activations, weights and biases. -/
theorem v9_eq (y : A3) (w : W2) (b : B1) : val_main_v9 (F := Ideal) y w b = val_main_v3 (F := Ideal) y w b := rfl
theorem v15_eq (y : A3) (w : W2) (b : B1) : val_main_v15 (F := Ideal) y w b = val_main_v3 (F := Ideal) y w b := rfl

/-! ## The heads -/

/-- Split into heads and transposed, entry (n, h, s, d) is the layer's feature h·64 + d of position s. -/
theorem heads_read (y : A3) (w : W2) (b : B1) (n : Fin 4) (h : Fin 16) (s : Fin 2048) (d : Fin 64) :
    val_main_v5 (F := Ideal) y w b (ix4 n h s d) = Mha.proj (Mha.tab y) w b n s (Mha.feat h d) := by
  rw [val_main_v5_apply, val_main_v4_apply]
  have hi : idx_main_v4 (idx_main_v5 (ix4 n h s d)) = ix3 n s (Mha.feat h d) := funext fun a => by
    have hn := n.isLt; have hh := h.isLt; have hs := s.isLt; have hd := d.isLt
    match a with
    | ⟨0, _⟩ =>
      refine Fin.ext ?_
      show (((n.val * 2048 + s.val) * 16 + h.val) * 64 + d.val) / 2097152 = n.val
      omega
    | ⟨1, _⟩ =>
      refine Fin.ext ?_
      show (((n.val * 2048 + s.val) * 16 + h.val) * 64 + d.val) / 1024 % 2048 = s.val
      omega
    | ⟨2, _⟩ =>
      refine Fin.ext ?_
      show (((n.val * 2048 + s.val) * 16 + h.val) * 64 + d.val) % 1024 = h.val * 64 + d.val
      omega
  rw [hi]
  exact proj_read y w b n s (Mha.feat h d)

theorem v11_eq (y : A3) (w : W2) (b : B1) : val_main_v11 (F := Ideal) y w b = val_main_v5 (F := Ideal) y w b := rfl
theorem v17_eq (y : A3) (w : W2) (b : B1) : val_main_v17 (F := Ideal) y w b = val_main_v5 (F := Ideal) y w b := rfl

/-! ## The score scale -/

/-- The binary32 word of 64 is the real 64. -/
theorem ofBits_sixtyfour : Ideal.ofBits .f32 0x42800000#32 = ((64 : ℝ) : EReal) := by
  simp [Ideal.ofBits, Ideal.ieee, -EReal.coe_mul]; norm_num

/-- The binary32 word of 1 is the real 1. -/
theorem ofBits_one : Ideal.ofBits .f32 0x3F800000#32 = ((1 : ℝ) : EReal) := by
  simp [Ideal.ofBits, Ideal.ieee, -EReal.coe_mul]; norm_num

/-- The binary32 word of 0.125 is the real 1/8. -/
theorem ofBits_eighth : Ideal.ofBits .f32 0x3E000000#32 = ((1 / 8 : ℝ) : EReal) := by
  simp [Ideal.ofBits, Ideal.ieee, -EReal.coe_mul]; norm_num

/-- The least extended real is the binary32 word of −∞. -/
theorem ofBits_neg_inf : Ideal.ofBits .f32 0xFF800000#32 = (⊥ : EReal) := by
  simp [Ideal.ofBits, Ideal.ieee]

/-- 1 / √64 is the scale 1/8 of the scores. -/
theorem scale_eq_at (j : S_.Idx) : val_main_v19 (F := Ideal) j = Mha.scale := by
  rw [val_main_v19_apply, val_main_v18_apply, val_main_cst_0_apply, val_main_cst_apply]
  unfold Mha.scale
  rw [Ideal.hostDivf_def, Ideal.hostUnary_sqrt_def, Ideal.ofBits_def, Ideal.ofBits_def, ofBits_sixtyfour, ofBits_one, ofBits_eighth,
    Ideal.sqrt_coe, if_neg (by norm_num)]
  have h8 : Real.sqrt 64 = 8 := by
    rw [show (64 : ℝ) = 8 ^ 2 by norm_num]; exact Real.sqrt_sq (by norm_num)
  rw [h8, Ideal.div_coe (by norm_num), ← EReal.coe_mul, one_mul]

theorem scale_eq : val_main_v19 (F := Ideal) ix0 = Mha.scale := scale_eq_at ix0

/-! ## The scores -/

/-- The scaled score of position s against position t in head h of batch entry n. -/
theorem score_read (x0 x1 : A3) (x3 : W2) (x4 : B1) (x5 : W2) (x6 : B1) (n : Fin 4) (h : Fin 16) (s t : Fin 2048) :
    val_main_v22 (F := Ideal) x0 x1 x3 x4 x5 x6 (ix4 n h s t)
      = Mha.score (Mha.proj (Mha.tab x0) x3 x4) (Mha.proj (Mha.tab x1) x5 x6) n h s t := by
  rw [val_main_v22_apply, val_main_v20_apply, val_main_v21_apply, scale_eq_at, v11_eq]
  have hl : ∀ k : Fin 64, lidx_main_v20 (ix4 n h s t) k = ix4 n h s k := fun k => funext fun a => by
    match a with
    | ⟨0, _⟩ => rfl
    | ⟨1, _⟩ => rfl
    | ⟨2, _⟩ => rfl
    | ⟨3, _⟩ => rfl
  have hr : ∀ k : Fin 64, ridx_main_v20 (ix4 n h s t) k = ix4 n h t k := fun k => funext fun a => by
    match a with
    | ⟨0, _⟩ => rfl
    | ⟨1, _⟩ => rfl
    | ⟨2, _⟩ => rfl
    | ⟨3, _⟩ => rfl
  simp only [hl, hr, heads_read]
  rfl

/-! ## The row maximum -/

/-- Dropping the last axis of [4, 16, 2048, 2048] leaves [4, 16, 2048]. -/
theorem reduces_last : S4x16x2048x2048.Reduces [3] S4x16x2048 := by decide

/-- Row (n, h, s) with the coordinate k put back on the last axis is the entry (n, h, s, k). -/
theorem lift_row (n : Fin 4) (h : Fin 16) (s : Fin 2048) (k : Fin (S4x16x2048x2048.size (3 : Fin S4x16x2048x2048.rank))) :
    reduces_last.lift (ix3 n h s) k = ix4 n h s (⟨k.val, k.isLt⟩ : Fin 2048) := by
  funext c; apply Fin.ext
  fin_cases c <;> rfl

/-- The maximum-reduction of an array whose row (n, h, s) is r, from −∞ over the last axis: the greatest entry of r. -/
theorem rowmax_read (y : (⟨S4x16x2048x2048, .f32⟩ : BufTy).Contents (Elt Ideal)) (r : Fin 2048 → EReal)
    (n : Fin 4) (h : Fin 16) (s : Fin 2048) (hy : ∀ t : Fin 2048, y (ix4 n h s t) = r t) :
    Host.reduce (FloatOps.maximumf (F := Ideal) (φ := .f32)) y (val_main_cst_1 (F := Ideal)) reducesTo_S4x16x2048x2048_S4x16x2048_d3 h_S_ (ix3 n h s)
      = Mha.rowmax r := by
  rw [Host.reduce_eq_fold_single (FloatOps.maximumf (F := Ideal) (φ := .f32)) y _ reducesTo_S4x16x2048x2048_S4x16x2048_d3 reduces_last h_S_]
  have hf : (y ∘ reduces_last.lift (ix3 n h s)) = fun k : Fin 2048 => r k :=
    funext fun k => (congrArg y (lift_row n h s k)).trans (hy _)
  have hi : val_main_cst_1 (F := Ideal) (Shape.Idx.first h_S_) = (⊥ : EReal) := ofBits_neg_inf
  rw [hi]
  unfold Mha.rowmax
  exact congrArg (fun f => Finset.fold max (⊥ : EReal) f (Finset.univ : Finset (Fin 2048))) hf

/-- The row maximum of the scores; the further maximum with −∞ changes nothing. -/
theorem max_read (x0 x1 : A3) (x3 : W2) (x4 : B1) (x5 : W2) (x6 : B1) (n : Fin 4) (h : Fin 16) (s : Fin 2048) :
    val_main_v25 (F := Ideal) x0 x1 x3 x4 x5 x6 (ix3 n h s)
      = Mha.rowmax (Mha.score (Mha.proj (Mha.tab x0) x3 x4) (Mha.proj (Mha.tab x1) x5 x6) n h s) := by
  rw [val_main_v25_apply, val_main_v24_apply, val_main_cst_2_apply, Ideal.maximumf_def, Ideal.ofBits_def, ofBits_neg_inf]
  have hm : val_main_v23 (F := Ideal) x0 x1 x3 x4 x5 x6 (ix3 n h s)
      = Mha.rowmax (Mha.score (Mha.proj (Mha.tab x0) x3 x4) (Mha.proj (Mha.tab x1) x5 x6) n h s) := by
    unfold val_main_v23
    exact rowmax_read _ _ n h s (fun t => score_read x0 x1 x3 x4 x5 x6 n h s t)
  rw [hm]
  exact max_eq_right bot_le

/-! ## The softmax -/

/-- The exponential of a score less its row's maximum. -/
theorem exp_read (x0 x1 : A3) (x3 : W2) (x4 : B1) (x5 : W2) (x6 : B1) (n : Fin 4) (h : Fin 16) (s t : Fin 2048) :
    val_main_v29 (F := Ideal) x0 x1 x3 x4 x5 x6 (ix4 n h s t)
      = Ideal.exp (Mha.score (Mha.proj (Mha.tab x0) x3 x4) (Mha.proj (Mha.tab x1) x5 x6) n h s t - Mha.rowmax (Mha.score (Mha.proj (Mha.tab x0) x3 x4) (Mha.proj (Mha.tab x1) x5 x6) n h s)) := by
  rw [val_main_v29_apply, val_main_v28_apply, val_main_v27_apply, val_main_v26_apply]
  have hi : idx_main_v26 (idx_main_v27 (ix4 n h s t)) = ix3 n h s := funext fun a => by
    match a with
    | ⟨0, _⟩ => rfl
    | ⟨1, _⟩ => rfl
    | ⟨2, _⟩ => rfl
  rw [hi, score_read, max_read]
  rfl

/-- The sum of a row's exponentials (from the zero word, which adds nothing). -/
theorem sum_read (x0 x1 : A3) (x3 : W2) (x4 : B1) (x5 : W2) (x6 : B1) (n : Fin 4) (h : Fin 16) (s : Fin 2048) :
    val_main_v30 (F := Ideal) x0 x1 x3 x4 x5 x6 (ix3 n h s)
      = ∑ u : Fin 2048, Ideal.exp (Mha.score (Mha.proj (Mha.tab x0) x3 x4) (Mha.proj (Mha.tab x1) x5 x6) n h s u - Mha.rowmax (Mha.score (Mha.proj (Mha.tab x0) x3 x4) (Mha.proj (Mha.tab x1) x5 x6) n h s)) := by
  rw [val_main_v30_apply]
  have h0 : val_main_cst_3 (F := Ideal) (Shape.Idx.first h_S_) = (0 : EReal) := Ideal.ofBits_zero_f32
  rw [h0, zero_add]
  refine Finset.sum_congr rfl fun k _ => ?_
  have hi : idx_main_v30 (ix3 n h s) k = ix4 n h s k := funext fun a => by
    match a with
    | ⟨0, _⟩ => rfl
    | ⟨1, _⟩ => rfl
    | ⟨2, _⟩ => rfl
    | ⟨3, _⟩ => rfl
  rw [hi, exp_read]

/-- The softmax weight of entry t of the row of scores. -/
theorem weight_read (x0 x1 : A3) (x3 : W2) (x4 : B1) (x5 : W2) (x6 : B1) (n : Fin 4) (h : Fin 16) (s t : Fin 2048) :
    val_main_v33 (F := Ideal) x0 x1 x3 x4 x5 x6 (ix4 n h s t) = Mha.weight (Mha.score (Mha.proj (Mha.tab x0) x3 x4) (Mha.proj (Mha.tab x1) x5 x6) n h s) t := by
  rw [val_main_v33_apply, val_main_v32_apply, val_main_v31_apply]
  have hi : idx_main_v31 (idx_main_v32 (ix4 n h s t)) = ix3 n h s := funext fun a => by
    match a with
    | ⟨0, _⟩ => rfl
    | ⟨1, _⟩ => rfl
    | ⟨2, _⟩ => rfl
  rw [hi, exp_read, sum_read]
  rfl

/-! ## The contexts, and the heads side by side -/

/-- The context of position s in head h: the values weighted by the softmax of its scores. -/
theorem ctx_read (x0 x1 x2 : A3) (x3 : W2) (x4 : B1) (x5 : W2) (x6 : B1) (x7 : W2) (x8 : B1) (n : Fin 4) (h : Fin 16) (s : Fin 2048) (d : Fin 64) :
    val_main_v34 (F := Ideal) x0 x1 x2 x3 x4 x5 x6 x7 x8 (ix4 n h s d) = Mha.ctx (Mha.proj (Mha.tab x0) x3 x4) (Mha.proj (Mha.tab x1) x5 x6) (Mha.proj (Mha.tab x2) x7 x8) n h s d := by
  rw [val_main_v34_apply, v17_eq]
  unfold Mha.ctx
  refine Finset.sum_congr rfl fun k _ => ?_
  have hl : lidx_main_v34 (ix4 n h s d) k = ix4 n h s k := funext fun a => by
    match a with
    | ⟨0, _⟩ => rfl
    | ⟨1, _⟩ => rfl
    | ⟨2, _⟩ => rfl
    | ⟨3, _⟩ => rfl
  have hr : ridx_main_v34 (ix4 n h s d) k = ix4 n h k d := funext fun a => by
    match a with
    | ⟨0, _⟩ => rfl
    | ⟨1, _⟩ => rfl
    | ⟨2, _⟩ => rfl
    | ⟨3, _⟩ => rfl
  rw [hl, hr, weight_read, heads_read]

/-- Transposed back and merged, feature e of position s is position e mod 64 of head e / 64. -/
theorem merged_read (x0 x1 x2 : A3) (x3 : W2) (x4 : B1) (x5 : W2) (x6 : B1) (x7 : W2) (x8 : B1) (n : Fin 4) (s : Fin 2048) (e : Fin 1024) :
    val_main_v36 (F := Ideal) x0 x1 x2 x3 x4 x5 x6 x7 x8 (ix3 n s e) = Mha.merged (Mha.proj (Mha.tab x0) x3 x4) (Mha.proj (Mha.tab x1) x5 x6) (Mha.proj (Mha.tab x2) x7 x8) n s e := by
  rw [val_main_v36_apply, val_main_v35_apply]
  have hi : idx_main_v35 (idx_main_v36 (ix3 n s e))
      = ix4 n (⟨e.val / 64, by have := e.isLt; omega⟩ : Fin 16) s (⟨e.val % 64, Nat.mod_lt _ (by decide)⟩ : Fin 64) := funext fun a => by
    have hn := n.isLt; have hs := s.isLt; have he := e.isLt
    match a with
    | ⟨0, _⟩ =>
      refine Fin.ext ?_
      show ((n.val * 2048 + s.val) * 1024 + e.val) / 2097152 = n.val
      omega
    | ⟨1, _⟩ =>
      refine Fin.ext ?_
      show ((n.val * 2048 + s.val) * 1024 + e.val) / 64 % 16 = e.val / 64
      omega
    | ⟨2, _⟩ =>
      refine Fin.ext ?_
      show ((n.val * 2048 + s.val) * 1024 + e.val) / 1024 % 2048 = s.val
      omega
    | ⟨3, _⟩ =>
      refine Fin.ext ?_
      show ((n.val * 2048 + s.val) * 1024 + e.val) % 64 = e.val % 64
      omega
  rw [hi, ctx_read]
  rfl

/-! ## The output layer, and the whole array -/

/-- The output layer is the same linear layer, of the merged contexts. -/
theorem v40_eq (x0 x1 x2 : A3) (x3 : W2) (x4 : B1) (x5 : W2) (x6 : B1) (x7 : W2) (x8 : B1) (x9 : W2) (x10 : B1) :
    val_main_v40 (F := Ideal) x0 x1 x2 x3 x4 x5 x6 x7 x8 x9 x10
      = val_main_v3 (F := Ideal) (val_main_v36 (F := Ideal) x0 x1 x2 x3 x4 x5 x6 x7 x8) x9 x10 := rfl

/-- The result at (n, s, e) is the attention layer there. -/
theorem out_read (x0 x1 x2 : A3) (x3 : W2) (x4 : B1) (x5 : W2) (x6 : B1) (x7 : W2) (x8 : B1) (x9 : W2) (x10 : B1) (n : Fin 4) (s : Fin 2048) (e : Fin 1024) :
    val_main_v40 (F := Ideal) x0 x1 x2 x3 x4 x5 x6 x7 x8 x9 x10 (ix3 n s e)
      = Mha.outTab x0 x1 x2 x3 x4 x5 x6 x7 x8 x9 x10 n s e := by
  rw [v40_eq, proj_read]
  have ht : Mha.tab (val_main_v36 (F := Ideal) x0 x1 x2 x3 x4 x5 x6 x7 x8) = Mha.merged (Mha.proj (Mha.tab x0) x3 x4) (Mha.proj (Mha.tab x1) x5 x6) (Mha.proj (Mha.tab x2) x7 x8) :=
    funext fun n => funext fun s => funext fun e => merged_read x0 x1 x2 x3 x4 x5 x6 x7 x8 n s e
  rw [ht]
  rfl

/-- The whole-array program computes the attention layer. -/
theorem ref_eq_out (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) :
    Cert.ReferenceIdeal.Read.val_main_v40 (F := Ideal) x0 x1 x2 x3 x4 x5 x6 x7 x8 x9 x10 = Cert.Mha.out x0 x1 x2 x3 x4 x5 x6 x7 x8 x9 x10 := by
  funext i
  obtain ⟨n, s, e, rfl⟩ : ∃ (n : Fin 4) (s : Fin 2048) (e : Fin 1024), i = ix3 n s e := ⟨i 0, i 1, i 2, eq_ix3 i⟩
  rw [Mha.out_apply]
  exact out_read x0 x1 x2 x3 x4 x5 x6 x7 x8 x9 x10 n s e

end Cert.ReferenceIdeal.RefValue

end
-- ==== Proof.lean ====
/-
  The certificate: a tiled multi-head attention layer against the whole-array one.

  Five claims. The three frames: each program terminates, faults nowhere and leaves its argument arrays as launched —
  the two tiled programs' by the generated frame proofs, the whole-array program's by its generated run with the result
  dropped. The idealization rewrote nothing, so that claim is trivial. And the algebraic claim: read over the
  extended reals, from memories that agree on the eleven arguments, both programs end with the same result array.
  The common value is the attention layer entry by entry (MhaSpec): the tiled program's run ends with its result at
  the last boundary's contents (KernelRun), which are that layer of the launch contents (KernelValue: the five
  kernel regions' blocks assembled, the re-layouts between them read through); the whole-array program's generated
  run ends with its operations' composed term, which is the same layer of its launch contents (RefValue). No
  finiteness of the inputs is used: the two programs apply the same operations in the same grouping, and the one
  literal that differs, the score scale, is 1/8 on one side and 1/√64 on the other.
-/
import proofs.«115554_j33449205301807_2_alg».proof.Defs
import proofs.«115554_j33449205301807_2_alg».proof.Proof.Gen.Kernel
import proofs.«115554_j33449205301807_2_alg».proof.Proof.Gen.Kernel.Skeleton
import proofs.«115554_j33449205301807_2_alg».proof.Proof.Gen.Kernel.Launch
import proofs.«115554_j33449205301807_2_alg».proof.Proof.Gen.Kernel.Points
import proofs.«115554_j33449205301807_2_alg».proof.Proof.Gen.Kernel.Frame
import proofs.«115554_j33449205301807_2_alg».proof.Proof.Gen.KernelIdeal
import proofs.«115554_j33449205301807_2_alg».proof.Proof.Gen.KernelIdeal.Skeleton
import proofs.«115554_j33449205301807_2_alg».proof.Proof.Gen.KernelIdeal.Launch
import proofs.«115554_j33449205301807_2_alg».proof.Proof.Gen.KernelIdeal.Points
import proofs.«115554_j33449205301807_2_alg».proof.Proof.Gen.KernelIdeal.Frame
import proofs.«115554_j33449205301807_2_alg».proof.Proof.Gen.ReferenceIdeal
import proofs.«115554_j33449205301807_2_alg».proof.Proof.Gen.Pre_finite_inputs
import proofs.«115554_j33449205301807_2_alg».proof.Proof.Gen.ReferenceIdeal.Run
import proofs.«115554_j33449205301807_2_alg».proof.Proof.Gen.ReferenceIdeal.Read
import proofs.«115554_j33449205301807_2_alg».proof.Proof.KernelRun
import proofs.«115554_j33449205301807_2_alg».proof.Proof.KernelValue
import proofs.«115554_j33449205301807_2_alg».proof.Proof.RefValue
import Idealize.ShloMosaic.Adequacy
import Idealize.ShloMosaic.Init

noncomputable section

namespace Cert.Proof

open Idealize.ShloMosaic Idealize.SL.Sem

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The tiled program's run with its result at the attention layer of the launch contents. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v20)
          = Cert.Mha.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono
    (fun _ h c => ⟨(h c).1.trans (Cert.KernelIdeal.KernelValue.result_eq m ρ c), (h c).2⟩)
    (Cert.KernelIdeal.RunValue.run_result m ρ)

/-- Both runs end with the attention layer of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq, Cert.ReferenceIdeal.RefValue.ref_eq_out, a0, a1, a2, a3, a4, a5, a6, a7, a8, a9, a10]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
